-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S8x32x8192 : Shape := ⟨3, ![8, 32, 8192]⟩
abbrev S_ : Shape := ⟨0, ![]⟩
abbrev S8 : Shape := ⟨1, ![8]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S8x32x8192 : S_.BroadcastsInDim S8x32x8192 (![] : Fin 0 → Fin S8x32x8192.rank)
  reducesTo_S8x32x8192_S_d0_1_2 : S8x32x8192.ReducesTo [0, 1, 2] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S65536x512 .f32) (main_arg1 : FVec F S256x512 .f32) (main_arg2 : FVec F S8x32x8192 .f32) (main_arg3 : FVec F S_ .f32) (main_arg4 : IVec S8 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S8x32x8192 .f32 := Host.absf main_arg2
  let main_cst_2 : FVec F S_ .f32 := constant S_ .f32 0x7F800000#32
  let main_v10 : FVec F S8x32x8192 .f32 := broadcastInDim S8x32x8192 ![] bcast_S_S8x32x8192 main_cst_2
  let main_v11 : IVec S8x32x8192 1 := cmpf .olt main_v9 main_v10
  let main_c_3 : IVec S_ 1 := constantI S_ 1 1#1
  let main_v12 : IVec S_ 1 := (fun x v => Host.reduce IntOp.andi x v reducesTo_S8x32x8192_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S65536x512 : Shape := ⟨2, ![65536, 512]⟩
abbrev S256x512 : Shape := ⟨2, ![256, 512]⟩
abbrev S8x32x8192 : Shape := ⟨3, ![8, 32, 8192]⟩
abbrev S_ : Shape := ⟨0, ![]⟩
abbrev S8 : Shape := ⟨1, ![8]⟩
abbrev S8x32x512 : Shape := ⟨3, ![8, 32, 512]⟩
abbrev S8x32x1 : Shape := ⟨3, ![8, 32, 1]⟩
abbrev S4096x512 : Shape := ⟨2, ![4096, 512]⟩
abbrev S1x32x4096 : Shape := ⟨3, ![1, 32, 4096]⟩
abbrev S1x32x512 : Shape := ⟨3, ![1, 32, 512]⟩
abbrev S1x32x1 : Shape := ⟨3, ![1, 32, 1]⟩
abbrev S32x512 : Shape := ⟨2, ![32, 512]⟩
abbrev S32x1 : Shape := ⟨2, ![32, 1]⟩
abbrev S32x4096 : Shape := ⟨2, ![32, 4096]⟩
abbrev S32 : Shape := ⟨1, ![32]⟩
abbrev S256x1 : Shape := ⟨2, ![256, 1]⟩
abbrev S256 : Shape := ⟨1, ![256]⟩
abbrev S512x256 : Shape := ⟨2, ![512, 256]⟩
abbrev S256x256 : Shape := ⟨2, ![256, 256]⟩
abbrev S256x2 : Shape := ⟨2, ![256, 2]⟩

abbrev nBuf : Space → Nat
  | .hbm => 134
  | .vmem => 10
  | .smem => 0
  | _ => 0

abbrev hbmTy0_0 (i : Nat) : BufTy := match i % 128 with
  | 0 => ⟨S65536x512, .f32⟩
  | 1 => ⟨S256x512, .f32⟩
  | 2 => ⟨S8x32x8192, .f32⟩
  | 3 => ⟨S_, .f32⟩
  | 4 => ⟨S8, .i32⟩
  | 5 => ⟨S8x32x512, .f32⟩
  | 6 => ⟨S8x32x1, .f32⟩
  | 7 => ⟨S256x512, .f32⟩
  | 8 => ⟨S256x1, .f32⟩
  | 9 => ⟨S256, .f32⟩
  | 10 => ⟨S_, .f32⟩
  | 11 => ⟨S256, .f32⟩
  | 12 => ⟨S256, .i1⟩
  | 13 => ⟨S512x256, .f32⟩
  | 14 => ⟨S256x256, .f32⟩
  | 15 => ⟨S_, .f32⟩
  | 16 => ⟨S256x256, .f32⟩
  | 17 => ⟨S256x256, .f32⟩
  | 18 => ⟨S256, .i32⟩
  | 19 => ⟨S256, .i1⟩
  | 20 => ⟨S_, .f32⟩
  | 21 => ⟨S256, .f32⟩
  | 22 => ⟨S_, .f32⟩
  | 23 => ⟨S256, .f32⟩
  | 24 => ⟨S256, .f32⟩
  | 25 => ⟨S256x1, .f32⟩
  | 26 => ⟨S256x256, .f32⟩
  | 27 => ⟨S256x256, .f32⟩
  | 28 => ⟨S256x256, .f32⟩
  | 29 => ⟨S_, .f32⟩
  | 30 => ⟨S256, .f32⟩
  | 31 => ⟨S256x1, .f32⟩
  | 32 => ⟨S256x1, .f32⟩
  | 33 => ⟨S256x256, .f32⟩
  | 34 => ⟨S256x256, .f32⟩
  | 35 => ⟨S_, .i32⟩
  | 36 => ⟨S256, .i32⟩
  | 37 => ⟨S256, .i1⟩
  | 38 => ⟨S_, .i32⟩
  | 39 => ⟨S256, .i32⟩
  | 40 => ⟨S256, .i32⟩
  | 41 => ⟨S256, .i32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S256x1, .i32⟩
  | 50 => ⟨S256x1, .i32⟩
  | 51 => ⟨S256x2, .i32⟩
  | 52 => ⟨S256, .f32⟩
  | 53 => ⟨S256, .f32⟩
  | 54 => ⟨S_, .f32⟩
  | 55 => ⟨S_, .f32⟩
  | 56 => ⟨S256, .f32⟩
  | 57 => ⟨S256, .f32⟩
  | 58 => ⟨S256x256, .f32⟩
  | 59 => ⟨S_, .f32⟩
  | 60 => ⟨S256, .f32⟩
  | 61 => ⟨S_, .f32⟩
  | 62 => ⟨S256, .f32⟩
  | 63 => ⟨S256, .f32⟩
  | 64 => ⟨S256x1, .f32⟩
  | 65 => ⟨S256x256, .f32⟩
  | 66 => ⟨S256x256, .f32⟩
  | 67 => ⟨S256x256, .f32⟩
  | 68 => ⟨S_, .f32⟩
  | 69 => ⟨S256, .f32⟩
  | 70 => ⟨S256x1, .f32⟩
  | 71 => ⟨S256x1, .f32⟩
  | 72 => ⟨S256x256, .f32⟩
  | 73 => ⟨S256x256, .f32⟩
  | 74 => ⟨S_, .i32⟩
  | 75 => ⟨S256, .i32⟩
  | 76 => ⟨S256, .i1⟩
  | 77 => ⟨S_, .i32⟩
  | 78 => ⟨S256, .i32⟩
  | 79 => ⟨S256, .i32⟩
  | 80 => ⟨S256, .i32⟩
  | 81 => ⟨S_, .i32⟩
  | 82 => ⟨S256, .i32⟩
  | 83 => ⟨S256, .i1⟩
  | 84 => ⟨S_, .i32⟩
  | 85 => ⟨S256, .i32⟩
  | 86 => ⟨S256, .i32⟩
  | 87 => ⟨S256, .i32⟩
  | 88 => ⟨S256x1, .i32⟩
  | 89 => ⟨S256x1, .i32⟩
  | 90 => ⟨S256x2, .i32⟩
  | 91 => ⟨S256, .f32⟩
  | 92 => ⟨S256, .f32⟩
  | 93 => ⟨S_, .f32⟩
  | 94 => ⟨S_, .f32⟩
  | 95 => ⟨S256, .f32⟩
  | 96 => ⟨S256, .f32⟩
  | 97 => ⟨S_, .f32⟩
  | 98 => ⟨S256, .f32⟩
  | 99 => ⟨S256, .i1⟩
  | 100 => ⟨S256, .i32⟩
  | 101 => ⟨S_, .i32⟩
  | 102 => ⟨S_, .i32⟩
  | 103 => ⟨S_, .i32⟩
  | 104 => ⟨S_, .i1⟩
  | 105 => ⟨S_, .f32⟩
  | 106 => ⟨S_, .f32⟩
  | 107 => ⟨S_, .i32⟩
  | 108 => ⟨S_, .i32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S256, .f32⟩
  | 116 => ⟨S256, .i1⟩
  | 117 => ⟨S256, .i32⟩
  | 118 => ⟨S_, .i32⟩
  | 119 => ⟨S_, .i32⟩
  | 120 => ⟨S_, .i32⟩
  | 121 => ⟨S_, .i1⟩
  | 122 => ⟨S_, .f32⟩
  | 123 => ⟨S_, .f32⟩
  | 124 => ⟨S_, .i32⟩
  | 125 => ⟨S_, .i32⟩
  | 126 => ⟨S_, .f32⟩
  | 127 => ⟨S_, .f32⟩
  | _ => ⟨S65536x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | .local _ .vmem, ⟨0, _⟩ => ⟨S4096x512, .f32⟩
  | .local _ .vmem, ⟨1, _⟩ => ⟨S4096x512, .f32⟩
  | .local _ .vmem, ⟨2, _⟩ => ⟨S1x32x4096, .f32⟩
  | .local _ .vmem, ⟨3, _⟩ => ⟨S1x32x4096, .f32⟩
  | .local _ .vmem, ⟨4, _⟩ => ⟨S1x32x512, .f32⟩
  | .local _ .vmem, ⟨5, _⟩ => ⟨S1x32x512, .f32⟩
  | .local _ .vmem, ⟨6, _⟩ => ⟨S1x32x1, .f32⟩
  | .local _ .vmem, ⟨7, _⟩ => ⟨S1x32x1, .f32⟩
  | .local _ .vmem, ⟨8, _⟩ => ⟨S32x512, .f32⟩
  | .local _ .vmem, ⟨9, _⟩ => ⟨S32x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_1 : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_v29 : Ref sig .tc := ⟨.hbm, 57, rfl⟩
abbrev main_v30 : Ref sig .tc := ⟨.hbm, 58, rfl⟩
abbrev main_call2_cst : Ref sig .tc := ⟨.hbm, 59, rfl⟩
abbrev main_call2_v0 : Ref sig .tc := ⟨.hbm, 60, rfl⟩
abbrev main_call2_cst_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_cst_1 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_v31 : Ref sig .tc := ⟨.hbm, 73, rfl⟩
abbrev main_c_4 : Ref sig .tc := ⟨.hbm, 74, rfl⟩
abbrev main_v32 : Ref sig .tc := ⟨.hbm, 75, rfl⟩
abbrev main_v33 : Ref sig .tc := ⟨.hbm, 76, rfl⟩
abbrev main_c_5 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_6 : Ref sig .tc := ⟨.hbm, 81, rfl⟩
abbrev main_v37 : Ref sig .tc := ⟨.hbm, 82, rfl⟩
abbrev main_v38 : Ref sig .tc := ⟨.hbm, 83, rfl⟩
abbrev main_c_7 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_8 : Ref sig .tc := ⟨.hbm, 93, rfl⟩
abbrev main_call3_v0 : Ref sig .tc := ⟨.hbm, 94, rfl⟩
abbrev main_call3_v1 : Ref sig .tc := ⟨.hbm, 95, rfl⟩
abbrev main_v47 : Ref sig .tc := ⟨.hbm, 96, rfl⟩
abbrev main_cst_9 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_c_10 : Ref sig .tc := ⟨.hbm, 101, rfl⟩
abbrev main_v51 : Ref sig .tc := ⟨.hbm, 102, rfl⟩
abbrev main_c_11 : Ref sig .tc := ⟨.hbm, 103, rfl⟩
abbrev main_v52 : Ref sig .tc := ⟨.hbm, 104, rfl⟩
abbrev main_cst_12 : Ref sig .tc := ⟨.hbm, 105, rfl⟩
abbrev main_v53 : Ref sig .tc := ⟨.hbm, 106, rfl⟩
abbrev main_c_13 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_14 : Ref sig .tc := ⟨.hbm, 111, rfl⟩
abbrev main_call4_v0 : Ref sig .tc := ⟨.hbm, 112, rfl⟩
abbrev main_v57 : Ref sig .tc := ⟨.hbm, 113, rfl⟩
abbrev main_cst_15 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_c_16 : Ref sig .tc := ⟨.hbm, 118, rfl⟩
abbrev main_v61 : Ref sig .tc := ⟨.hbm, 119, rfl⟩
abbrev main_c_17 : Ref sig .tc := ⟨.hbm, 120, rfl⟩
abbrev main_v62 : Ref sig .tc := ⟨.hbm, 121, rfl⟩
abbrev main_cst_18 : Ref sig .tc := ⟨.hbm, 122, rfl⟩
abbrev main_v63 : Ref sig .tc := ⟨.hbm, 123, rfl⟩
abbrev main_c_19 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_20 : Ref sig .tc := ⟨.hbm, 128, rfl⟩
abbrev main_call5_v0 : Ref sig .tc := ⟨.hbm, 129, rfl⟩
abbrev main_v67 : Ref sig .tc := ⟨.hbm, 130, rfl⟩
abbrev main_v68 : Ref sig .tc := ⟨.hbm, 131, rfl⟩
abbrev main_cst_21 : Ref sig .tc := ⟨.hbm, 132, rfl⟩
abbrev main_v69 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S4096x512_S4096x512_0_0 : ∀ a, (![0, 0] : Fin 2 → Nat) a + S4096x512.size a ≤ S4096x512.size a
  h_S4096x512 : 0 < S4096x512.numel
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  bitsLt_bf16_f32 : FTy.bits .bf16 < FTy.bits .f32
  reduces_S32x4096_S32 : S32x4096.Reduces [1] S32
  shapeCasts_S32_S32x1 : S32.ShapeCasts S32x1
  broadcasts_S32x1_S32x512 : S32x1.Broadcasts S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  shapeCasts_S8x32x512_S256x512 : S8x32x512.ShapeCasts S256x512
  shapeCasts_S8x32x1_S256x1 : S8x32x1.ShapeCasts S256x1
  shapeCasts_S256x1_S256 : S256x1.ShapeCasts S256
  bcast_S_S256 : S_.BroadcastsInDim S256 (![] : Fin 0 → Fin S256.rank)
  transposes_S256x512_S512x256_1_0 : S256x512.Transposes [1, 0] S512x256
  bcast_S_S256x256 : S_.BroadcastsInDim S256x256 (![] : Fin 0 → Fin S256x256.rank)
  reducesTo_S256x256_S256_d1 : S256x256.ReducesTo [1] S256
  h_S_ : 0 < S_.numel
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  concatenates_S256x1_S256x1_S256x2_d1 : Shape.Concatenates [S256x1, S256x1] S256x2 1
  transposes_S256x256_S256x256_1_0 : S256x256.Transposes [1, 0] S256x256
  natLt_1_32 : 1 < 32
  reducesTo_S256_S_d0 : S256.ReducesTo [0] S_
  dot_S32x4096_S4096x512_S32x512_1_0_0_1_n_n_wf : DotDims.WF S32x4096 S4096x512 S32x512 [1] [0] [0] [1] [] []
  dot_S256x512_S512x256_S256x256_1_0_0_1_n_n_wf : DotDims.WF S256x512 S512x256 S256x256 [1] [0] [0] [1] [] []
  gather_S256x256_S256x2_S256_n_01_n_n_01_1_11_wf : GatherDims.WF S256x256 S256x2 S256 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4096.size a ≤ S8x32x8192.size a
  hwx0_1 : ∀ i : grid0.Coords, EltTy.bits .f32 = 32 ∨ (Rect.block (s := S8x32x8192) S1x32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x512.size a ≤ S8x32x512.size a
  hwx0_2 : ∀ i : grid0.Coords, EltTy.bits .f32 = 32 ∨ (Rect.block (s := S8x32x512) S1x32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S8x32x1.size a
  hwx0_3 : ∀ i : grid0.Coords, EltTy.bits .f32 = 32 ∨ (Rect.block (s := S8x32x1) S1x32x1.size (cc0_transform_3 i) (hinb0_3 i)).WholeWords (EltTy.packing .f32)

variable [Facts₀]

def dot_S32x4096_S4096x512_S32x512_1_0_0_1_n_n : DotDims S32x4096 S4096x512 S32x512 where
  lhsContracting := [1]
  rhsContracting := [0]
  lhsNonContracting := [0]
  rhsNonContracting := [1]
  lhsBatch := []
  rhsBatch := []
  wf := dot_S32x4096_S4096x512_S32x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x32x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x512 : Shape := ⟨2, ![65536, 512]⟩
abbrev S256x512 : Shape := ⟨2, ![256, 512]⟩
abbrev S8x32x8192 : Shape := ⟨3, ![8, 32, 8192]⟩
abbrev S_ : Shape := ⟨0, ![]⟩
abbrev S8 : Shape := ⟨1, ![8]⟩
abbrev S8x8192x512 : Shape := ⟨3, ![8, 8192, 512]⟩
abbrev S8x32x512 : Shape := ⟨3, ![8, 32, 512]⟩
abbrev S8x32 : Shape := ⟨2, ![8, 32]⟩
abbrev S256x1 : Shape := ⟨2, ![256, 1]⟩
abbrev S256 : Shape := ⟨1, ![256]⟩
abbrev S512x256 : Shape := ⟨2, ![512, 256]⟩
abbrev S256x256 : Shape := ⟨2, ![256, 256]⟩
abbrev S256x2 : Shape := ⟨2, ![256, 2]⟩

abbrev nBuf : Space → Nat
  | .hbm => 141
  | .vmem => 0
  | .smem => 0
  | _ => 0

abbrev hbmTy0_0 (i : Nat) : BufTy := match i % 128 with
  | 0 => ⟨S65536x512, .f32⟩
  | 1 => ⟨S256x512, .f32⟩
  | 2 => ⟨S8x32x8192, .f32⟩
  | 3 => ⟨S_, .f32⟩
  | 4 => ⟨S8, .i32⟩
  | 5 => ⟨S8x8192x512, .f32⟩
  | 6 => ⟨S8x32x512, .f32⟩
  | 7 => ⟨S256x512, .f32⟩
  | 8 => ⟨S_, .f32⟩
  | 9 => ⟨S8x32, .f32⟩
  | 10 => ⟨S256x1, .f32⟩
  | 11 => ⟨S256, .f32⟩
  | 12 => ⟨S_, .f32⟩
  | 13 => ⟨S256, .f32⟩
  | 14 => ⟨S256, .i1⟩
  | 15 => ⟨S_, .f32⟩
  | 16 => ⟨S256x1, .f32⟩
  | 17 => ⟨S256x1, .f32⟩
  | 18 => ⟨S256x512, .f32⟩
  | 19 => ⟨S256x512, .f32⟩
  | 20 => ⟨S512x256, .f32⟩
  | 21 => ⟨S256x256, .f32⟩
  | 22 => ⟨S_, .f32⟩
  | 23 => ⟨S256x256, .f32⟩
  | 24 => ⟨S256x256, .f32⟩
  | 25 => ⟨S256, .i32⟩
  | 26 => ⟨S256, .i1⟩
  | 27 => ⟨S_, .f32⟩
  | 28 => ⟨S256, .f32⟩
  | 29 => ⟨S_, .f32⟩
  | 30 => ⟨S256, .f32⟩
  | 31 => ⟨S256, .f32⟩
  | 32 => ⟨S256x1, .f32⟩
  | 33 => ⟨S256x256, .f32⟩
  | 34 => ⟨S256x256, .f32⟩
  | 35 => ⟨S256x256, .f32⟩
  | 36 => ⟨S_, .f32⟩
  | 37 => ⟨S256, .f32⟩
  | 38 => ⟨S256x1, .f32⟩
  | 39 => ⟨S256x1, .f32⟩
  | 40 => ⟨S256x256, .f32⟩
  | 41 => ⟨S256x256, .f32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S_, .i32⟩
  | 50 => ⟨S256, .i32⟩
  | 51 => ⟨S256, .i1⟩
  | 52 => ⟨S_, .i32⟩
  | 53 => ⟨S256, .i32⟩
  | 54 => ⟨S256, .i32⟩
  | 55 => ⟨S256, .i32⟩
  | 56 => ⟨S256x1, .i32⟩
  | 57 => ⟨S256x1, .i32⟩
  | 58 => ⟨S256x2, .i32⟩
  | 59 => ⟨S256, .f32⟩
  | 60 => ⟨S256, .f32⟩
  | 61 => ⟨S_, .f32⟩
  | 62 => ⟨S_, .f32⟩
  | 63 => ⟨S256, .f32⟩
  | 64 => ⟨S256, .f32⟩
  | 65 => ⟨S256x256, .f32⟩
  | 66 => ⟨S_, .f32⟩
  | 67 => ⟨S256, .f32⟩
  | 68 => ⟨S_, .f32⟩
  | 69 => ⟨S256, .f32⟩
  | 70 => ⟨S256, .f32⟩
  | 71 => ⟨S256x1, .f32⟩
  | 72 => ⟨S256x256, .f32⟩
  | 73 => ⟨S256x256, .f32⟩
  | 74 => ⟨S256x256, .f32⟩
  | 75 => ⟨S_, .f32⟩
  | 76 => ⟨S256, .f32⟩
  | 77 => ⟨S256x1, .f32⟩
  | 78 => ⟨S256x1, .f32⟩
  | 79 => ⟨S256x256, .f32⟩
  | 80 => ⟨S256x256, .f32⟩
  | 81 => ⟨S_, .i32⟩
  | 82 => ⟨S256, .i32⟩
  | 83 => ⟨S256, .i1⟩
  | 84 => ⟨S_, .i32⟩
  | 85 => ⟨S256, .i32⟩
  | 86 => ⟨S256, .i32⟩
  | 87 => ⟨S256, .i32⟩
  | 88 => ⟨S_, .i32⟩
  | 89 => ⟨S256, .i32⟩
  | 90 => ⟨S256, .i1⟩
  | 91 => ⟨S_, .i32⟩
  | 92 => ⟨S256, .i32⟩
  | 93 => ⟨S256, .i32⟩
  | 94 => ⟨S256, .i32⟩
  | 95 => ⟨S256x1, .i32⟩
  | 96 => ⟨S256x1, .i32⟩
  | 97 => ⟨S256x2, .i32⟩
  | 98 => ⟨S256, .f32⟩
  | 99 => ⟨S256, .f32⟩
  | 100 => ⟨S_, .f32⟩
  | 101 => ⟨S_, .f32⟩
  | 102 => ⟨S256, .f32⟩
  | 103 => ⟨S256, .f32⟩
  | 104 => ⟨S_, .f32⟩
  | 105 => ⟨S256, .f32⟩
  | 106 => ⟨S256, .i1⟩
  | 107 => ⟨S256, .i32⟩
  | 108 => ⟨S_, .i32⟩
  | 109 => ⟨S_, .i32⟩
  | 110 => ⟨S_, .i32⟩
  | 111 => ⟨S_, .i1⟩
  | 112 => ⟨S_, .f32⟩
  | 113 => ⟨S_, .f32⟩
  | 114 => ⟨S_, .i32⟩
  | 115 => ⟨S_, .i32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S256, .f32⟩
  | 123 => ⟨S256, .i1⟩
  | 124 => ⟨S256, .i32⟩
  | 125 => ⟨S_, .i32⟩
  | 126 => ⟨S_, .i32⟩
  | 127 => ⟨S_, .i32⟩
  | _ => ⟨S65536x512, .f32⟩

abbrev hbmTy0_1 (i : Nat) : BufTy := match i % 128 with
  | 0 => ⟨S_, .i1⟩
  | 1 => ⟨S_, .f32⟩
  | 2 => ⟨S_, .f32⟩
  | 3 => ⟨S_, .i32⟩
  | 4 => ⟨S_, .i32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v35 : Ref sig .tc := ⟨.hbm, 64, rfl⟩
abbrev main_v36 : Ref sig .tc := ⟨.hbm, 65, rfl⟩
abbrev main_call2_cst : Ref sig .tc := ⟨.hbm, 66, rfl⟩
abbrev main_call2_v0 : Ref sig .tc := ⟨.hbm, 67, rfl⟩
abbrev main_call2_cst_0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_cst_1 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_v37 : Ref sig .tc := ⟨.hbm, 80, rfl⟩
abbrev main_c_6 : Ref sig .tc := ⟨.hbm, 81, rfl⟩
abbrev main_v38 : Ref sig .tc := ⟨.hbm, 82, rfl⟩
abbrev main_v39 : Ref sig .tc := ⟨.hbm, 83, rfl⟩
abbrev main_c_7 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_8 : Ref sig .tc := ⟨.hbm, 88, rfl⟩
abbrev main_v43 : Ref sig .tc := ⟨.hbm, 89, rfl⟩
abbrev main_v44 : Ref sig .tc := ⟨.hbm, 90, rfl⟩
abbrev main_c_9 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_10 : Ref sig .tc := ⟨.hbm, 100, rfl⟩
abbrev main_call3_v0 : Ref sig .tc := ⟨.hbm, 101, rfl⟩
abbrev main_call3_v1 : Ref sig .tc := ⟨.hbm, 102, rfl⟩
abbrev main_v53 : Ref sig .tc := ⟨.hbm, 103, rfl⟩
abbrev main_cst_11 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_12 : Ref sig .tc := ⟨.hbm, 108, rfl⟩
abbrev main_v57 : Ref sig .tc := ⟨.hbm, 109, rfl⟩
abbrev main_c_13 : Ref sig .tc := ⟨.hbm, 110, rfl⟩
abbrev main_v58 : Ref sig .tc := ⟨.hbm, 111, rfl⟩
abbrev main_cst_14 : Ref sig .tc := ⟨.hbm, 112, rfl⟩
abbrev main_v59 : Ref sig .tc := ⟨.hbm, 113, rfl⟩
abbrev main_c_15 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_16 : Ref sig .tc := ⟨.hbm, 118, rfl⟩
abbrev main_call4_v0 : Ref sig .tc := ⟨.hbm, 119, rfl⟩
abbrev main_v63 : Ref sig .tc := ⟨.hbm, 120, rfl⟩
abbrev main_cst_17 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_c_18 : Ref sig .tc := ⟨.hbm, 125, rfl⟩
abbrev main_v67 : Ref sig .tc := ⟨.hbm, 126, rfl⟩
abbrev main_c_19 : Ref sig .tc := ⟨.hbm, 127, rfl⟩
abbrev main_v68 : Ref sig .tc := ⟨.hbm, 128, rfl⟩
abbrev main_cst_20 : Ref sig .tc := ⟨.hbm, 129, rfl⟩
abbrev main_v69 : Ref sig .tc := ⟨.hbm, 130, rfl⟩
abbrev main_c_21 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_22 : Ref sig .tc := ⟨.hbm, 135, rfl⟩
abbrev main_call5_v0 : Ref sig .tc := ⟨.hbm, 136, rfl⟩
abbrev main_v73 : Ref sig .tc := ⟨.hbm, 137, rfl⟩
abbrev main_v74 : Ref sig .tc := ⟨.hbm, 138, rfl⟩
abbrev main_cst_23 : Ref sig .tc := ⟨.hbm, 139, rfl⟩
abbrev main_v75 : Ref sig .tc := ⟨.hbm, 140, rfl⟩

abbrev nD : Nat := 1
abbrev τ : Topo := Topo.v7x

variable {F : FTy → Type} [FloatOps F]

class Facts₀ : Prop where
  shapeCasts_S65536x512_S8x8192x512 : S65536x512.ShapeCasts S8x8192x512
  shapeCasts_S8x32x512_S256x512 : S8x32x512.ShapeCasts S256x512
  reducesTo_S8x32x8192_S8x32_d2 : S8x32x8192.ReducesTo [2] S8x32
  h_S_ : 0 < S_.numel
  shapeCasts_S8x32_S256x1 : S8x32.ShapeCasts S256x1
  shapeCasts_S256x1_S256 : S256x1.ShapeCasts S256
  bcast_S_S256 : S_.BroadcastsInDim S256 (![] : Fin 0 → Fin S256.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  transposes_S256x512_S512x256_1_0 : S256x512.Transposes [1, 0] S512x256
  bcast_S_S256x256 : S_.BroadcastsInDim S256x256 (![] : Fin 0 → Fin S256x256.rank)
  reducesTo_S256x256_S256_d1 : S256x256.ReducesTo [1] S256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  concatenates_S256x1_S256x1_S256x2_d1 : Shape.Concatenates [S256x1, S256x1] S256x2 1
  transposes_S256x256_S256x256_1_0 : S256x256.Transposes [1, 0] S256x256
  natLt_1_32 : 1 < 32
  reducesTo_S256_S_d0 : S256.ReducesTo [0] S_
  dot_S8x32x8192_S8x8192x512_S8x32x512_2_1_1_2_0_0_wf : DotDims.WF S8x32x8192 S8x8192x512 S8x32x512 [2] [1] [1] [2] [0] [0]
  dot_S256x512_S512x256_S256x256_1_0_0_1_n_n_wf : DotDims.WF S256x512 S512x256 S256x256 [1] [0] [0] [1] [] []
  gather_S256x256_S256x2_S256_n_01_n_n_01_1_11_wf : GatherDims.WF S256x256 S256x2 S256 [] [0, 1] [] [0, 1] [] 1 ![1, 1]

variable [Facts₀]

def dot_S8x32x8192_S8x8192x512_S8x32x512_2_1_1_2_0_0 : DotDims S8x32x8192 S8x8192x512 S8x32x512 where
  lhsContracting := [2]
  rhsContracting := [1]
  lhsNonContracting := [1]
  rhsNonContracting := [2]
  lhsBatch := [0]
  rhsBatch := [0]
  wf := dot_S8x32x8192_S8x8192x512_S8x32x512_2_1_1_2_0_0_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

class Facts : Prop extends Facts₀ where

variable [Facts]
-- ==== Proof.BitsKit.lean ====
/-
  The frame of the segment-mean kernel, first part: everything about @main and the schedule that the runs of the
  kernel body are stated over.

  @main is one region (the kernel on its 8 × 2 grid: object `b`, half `k` of the object's points) followed by 127 host
  lines in 13 stretches.  Here: the contents of the core's buffers when the region is entered (nothing runs before
  it, so they are the launch contents); @main as "the region, then the 13 stretches"; the three things the lines
  after the region owe the frame run (they touch unscoped buffers only, allocate nothing, and write neither an
  argument nor one of the kernel's two result arrays — each line writes only its own result buffer); a window's
  block at a grid point read off its array; an input window's staging buffer holds its block at every point; the
  frame claim's post from a frame run's; the body's two branch conditions decided over the grid (the first holds
  at the even points, `k = 0`: the accumulators are cleared; the second at the odd points, `k = 1`: the means and the
  total weights are stored); where the two output windows are idle; and the region invariant's scoped part as the
  two accumulators owned at some contents.
-/
import proofs.«168626_j28896539967630_2_alg».proof.Proof.Gen.Kernel.Launch
import proofs.«168626_j28896539967630_2_alg».proof.Proof.Gen.Kernel.Skeleton
import proofs.«168626_j28896539967630_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The 13 stretches of host lines after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- Core `c`'s buffer contents when the region is entered: no host line runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The buffers the lines after the region leave alone: the five arguments and the kernel's two results. -/
abbrev kept : List (Ref sig .tc) := [main_arg0, main_arg1, main_arg2, main_arg3, main_arg4, main_v0_0, main_v0_1]

theorem hostOps1_fresh : (hostOps1 : List (HloOp τ sig (Elt F))).Forall fun op => op.fresh = ∅ := by
  simp only [List.Forall]; repeat' constructor
theorem hostOps1_keeps : (hostOps1 : List (HloOp τ sig (Elt F))).Forall fun op => (kept).Forall fun r => Proc.devRef .tc r ∉ op.writes := by
  simp only [hostOps1, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => (kept).Forall fun r => Proc.devRef .tc r ∉ op.writes := by
  simp only [hostOps1_1, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => (kept).Forall fun r => Proc.devRef .tc r ∉ op.writes := by
  simp only [hostOps1_2, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => (kept).Forall fun r => Proc.devRef .tc r ∉ op.writes := by
  simp only [hostOps1_3, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => (kept).Forall fun r => Proc.devRef .tc r ∉ op.writes := by
  simp only [hostOps1_4, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => (kept).Forall fun r => Proc.devRef .tc r ∉ op.writes := by
  simp only [hostOps1_5, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => (kept).Forall fun r => Proc.devRef .tc r ∉ op.writes := by
  simp only [hostOps1_6, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => (kept).Forall fun r => Proc.devRef .tc r ∉ op.writes := by
  simp only [hostOps1_7, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => (kept).Forall fun r => Proc.devRef .tc r ∉ op.writes := by
  simp only [hostOps1_8, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op => (kept).Forall fun r => Proc.devRef .tc r ∉ op.writes := by
  simp only [hostOps1_9, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op => (kept).Forall fun r => Proc.devRef .tc r ∉ op.writes := by
  simp only [hostOps1_10, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op => (kept).Forall fun r => Proc.devRef .tc r ∉ op.writes := by
  simp only [hostOps1_11, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op => (kept).Forall fun r => Proc.devRef .tc r ∉ op.writes := by
  simp only [hostOps1_12, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- Every line after the region touches TensorCore references only. -/
theorem tail_sub : (tailOps : List (List (HloOp τ sig (Elt F)))).Forall fun ops => ops.Forall fun op => op.bufs ⊆ StableHlo.tcRefs τ sig := by
  simp only [tailOps, List.Forall]
  exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩
/-- None allocates. -/
theorem tail_fresh : (tailOps : List (List (HloOp τ sig (Elt F)))).Forall fun ops => ops.Forall fun op => op.fresh = ∅ := by
  simp only [tailOps, List.Forall]
  exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩
/-- None writes an argument or a result of the kernel. -/
theorem tail_keeps : (tailOps : List (List (HloOp τ sig (Elt F)))).Forall fun ops => ops.Forall fun op => (kept).Forall fun r => Proc.devRef .tc r ∉ op.writes := by
  simp only [tailOps, List.Forall]
  exact ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps⟩

/-- @main is the region continued by the 13 stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop
/-- A kept buffer is written by no line after the region. -/
theorem kept_not_written (r : Ref sig .tc) (hr : r ∈ (kept : List (Ref sig .tc))) :
    ∀ op ∈ (tailOps : List (List (HloOp τ sig (Elt F)))).flatten, Proc.devRef .tc r ∉ op.writes := by
  intro op hop
  obtain ⟨ops, hops, hop⟩ := List.mem_flatten.mp hop
  exact (List.forall_iff_forall_mem.mp ((List.forall_iff_forall_mem.mp ((List.forall_iff_forall_mem.mp tail_keeps) ops hops)) op hop)) r hr
theorem sfx_keeps : ∀ ops ∈ (tailOps : List (List (HloOp τ sig (Elt F)))), ∀ op ∈ ops,
    ∀ w, Proc.devRef .tc (Pipeline.arrRef spec0 w) ∉ op.writes := by
  intro ops hops op hop w
  refine (List.forall_iff_forall_mem.mp ((List.forall_iff_forall_mem.mp ((List.forall_iff_forall_mem.mp tail_keeps) ops hops)) op hop)) _ ?_
  fin_cases w <;> simp [kept]

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-- A kept buffer that is no array of the pipeline ends, after the lines, at its launch contents. -/
theorem W_kept (dats : (p : Fin 1) → (c : Dev nD) → Dat τ (Elt F) Unit ℕ (UR sig nD τ) ℕ (cfgs p) c) (c : Dev nD)
    (r : Ref sig .tc) (hr : r ∈ (kept : List (Ref sig .tc))) (hne : ∀ w, Pipeline.arrRef spec0 w ≠ r) :
    Pipeline.afterTail₀ cfgs dats 0 (V0 m) tailOps c r = V m c r := by
  unfold Pipeline.afterTail₀
  rw [StableHlo.after_of_forall_not_mem (b := Proc.devRef .tc r) _ _ (kept_not_written r hr),
    Pipeline.withArrays_of_ne _ c (V0 m c) _ r hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a frame run's post read at the five arguments
    is the frame claim's: the two staged arguments are input arrays (unchanged through the region, and no later
    line writes them), the other three bypass the region and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).1 0).trans (((dats 0 c).arrAt_in 0 rfl _).trans ((hA c 0).trans (V_main_arg0 m c))),
    ((h c).2 main_arg1 (Pipeline.mem_restRefs_of main_arg1 (by decide) (by decide))).trans ((W_kept m dats c main_arg1 (by simp [kept]) (by decide)).trans (V_main_arg1 m c)),
    ((h c).1 1).trans (((dats 0 c).arrAt_in 1 rfl _).trans ((hA c 1).trans (V_main_arg2 m c))),
    ((h c).2 main_arg3 (Pipeline.mem_restRefs_of main_arg3 (by decide) (by decide))).trans ((W_kept m dats c main_arg3 (by simp [kept]) (by decide)).trans (V_main_arg3 m c)),
    ((h c).2 main_arg4 (Pipeline.mem_restRefs_of main_arg4 (by decide) (by decide))).trans ((W_kept m dats c main_arg4 (by simp [kept]) (by decide)).trans (V_main_arg4 m c))⟩) h

/-! ## The body's branch conditions -/

/-- The first branch's condition (the accumulators are cleared), from the grid coordinates. -/
abbrev cond0_0 (i : grid0.Coords) : Prop := (Scalar.cmpi .ne (Scalar.extui (Scalar.cmpi .eq (BitVec.ofNat 32 (i 1).val) 0#32)) 0#32) = 1#1
/-- It holds at the even points: the first half of each object's points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second branch's condition (the means and total weights are stored). -/
abbrev cond0_1 (i : grid0.Coords) : Prop := k0_cond2 i = 1#1
/-- It holds at the odd points: the second half of each object's points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points the body stores nothing into the means' window, -/
theorem idleAt0_2_A : ∀ t : Fin cfg0.N, cond0_0 (grid0.coords t) → ¬cond0_1 (grid0.coords t) → cfg0.idle 2 (grid0.coords t) = true := by decide +kernel
/-- and the pipeline does not write its block back there. -/
theorem noFlush0_2_A : ∀ t : Fin cfg0.N, cond0_0 (grid0.coords t) → ¬cond0_1 (grid0.coords t) → (cfg0.win 2).flush t = false := by decide +kernel
/-- The same for the total weights' window. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At the odd points both output windows are stored into. -/
theorem liveAt0_2_B : ∀ t : Fin cfg0.N, ¬cond0_0 (grid0.coords t) → cond0_1 (grid0.coords t) → cfg0.idle 2 (grid0.coords t) = false := by decide +kernel
theorem liveAt0_3_B : ∀ t : Fin cfg0.N, ¬cond0_0 (grid0.coords t) → cond0_1 (grid0.coords t) → cfg0.idle 3 (grid0.coords t) = false := by decide +kernel

/-! ## The memrefs the body runs on -/

/-- One staging buffer of each output window, through which its contents are stated. -/
abbrev VO0_2 : View sig .tc .vmem S1x32x512 .f32 := (Memref.whole cc0_stg2_0 : Memref sig .tc .vmem S1x32x512 .f32).view
abbrev VO0_3 : View sig .tc .vmem S1x32x1 .f32 := (Memref.whole cc0_stg3_0 : Memref sig .tc .vmem S1x32x1 .f32).view
/-- Each window's current staging memref at point `t`, as the pipeline passes it, and its wholeness. -/
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x1 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S32x512 .f32 := Memref.whole cc0_scratch0
abbrev scM0_1 : Memref sig .tc .vmem S32x1 .f32 := Memref.whole cc0_scratch1
abbrev VS0_0 : View sig .tc .vmem S32x512 .f32 := scM0_0.view
abbrev VS0_1 : View sig .tc .vmem S32x1 .f32 := scM0_1.view

/-- The class's region invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Seg

end
-- ==== Proof.BitsRunA.lean ====
/-
  The kernel body at an EVEN grid point (the first half of an object's points): the first branch is taken, the
  second is not.  On whole staging memrefs — the two input windows' at their blocks `x0` (4096 points' features)
  and `x1` (the 32 masks' weights of those points), the two output windows' at contents handed back untouched, the
  two accumulators at anything — the body runs to its end: it clears both accumulators, then adds to them, and
  stores nothing else.  What the accumulators end with is found as the lists of pieces the run's stores leave.
-/
import proofs.«168626_j28896539967630_2_alg».proof.Proof.BitsKit

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_A (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) :
    Σ' (LS0 : List (View.Piece (Elt F) S32x512 .f32)), { LS1 : List (View.Piece (Elt F) S32x1 .f32) //
      ∀ (xi2 : Vec F S1x32x512 .f32) (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__seg_reduce_kernel i arg2 harg2 arg3 harg3 arg4 harg4 arg5 harg5 arg6 harg6 arg7 harg7) K } := by
  refine ⟨?_, ?_, fun xi2 xi3 E K => ?run⟩
  case run =>
    simp only [cc0__seg_reduce_kernel_eq_skeleton]; unfold cc0__seg_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Seg

end
-- ==== Proof.BitsRunB.lean ====
/-
  The kernel body at an ODD grid point (the second half of an object's points): the first branch is not taken,
  the second is.  On whole staging memrefs — the two input windows' at their blocks `x0` and `x1`, the two output
  windows' at anything, the two accumulators at what the point before left, `xs0` and `xs1` — the body runs to its
  end: it adds to both accumulators, then stores the quotient into the means' window and the total weights into
  theirs.  What the four buffers end with is found as the lists of pieces the run's stores leave.
-/
import proofs.«168626_j28896539967630_2_alg».proof.Proof.BitsRunA

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_B (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) :
    Σ' (L2 : List (View.Piece (Elt F) S1x32x512 .f32)) (L3 : List (View.Piece (Elt F) S1x32x1 .f32)) (LS0 : List (View.Piece (Elt F) S32x512 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__seg_reduce_kernel i arg2 harg2 arg3 harg3 arg4 harg4 arg5 harg5 arg6 harg6 arg7 harg7) K } := by
  refine ⟨?_, ?_, ?_, ?_, fun E K => ?run⟩
  case run =>
    simp only [cc0__seg_reduce_kernel_eq_skeleton]; unfold cc0__seg_reduce_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Seg

end
-- ==== Proof.BitsFrame.lean ====
/-
  The frame of the segment-mean kernel, last part.

  What the body leaves, case by case: at an even point the two accumulators hold the cleared-then-added sums of
  the point's blocks; at an odd point they hold the point's blocks added to what the point before left, and the two
  output windows' staging buffers hold the quotient and the total weights.  Point by point (`outsAt0`, by recursion
  on the point: an odd point reads what the even point before it left in the accumulators).  The region invariant
  carries the two accumulators at those contents from one point to the next.  With the proof data stated so, the
  body obligation holds at every point (the even and the odd case, each by its whole-body run), the launch theorem
  for a region followed by host lines gives the frame run, and the frame claim follows: the arguments end as
  launched.
-/
import proofs.«168626_j28896539967630_2_alg».proof.Proof.BitsRunB

set_option maxRecDepth 16384

noncomputable section

namespace Cert.Kernel.Seg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) (y : S32x512.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S32x512.size (by sl_kernel_rfl) y
/-- The feature accumulator after an even point: the run's pieces read back. -/
def sout0_A_0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) : Vec F S32x512 .f32 :=
  VS0_0.read (Elt F) (VS0_0.writes (Elt F) VS0_0.junk (kernelRun0_A c i arg2 harg2 arg3 harg3 arg4 harg4 arg5 harg5 arg6 harg6 arg7 harg7 hc0 hc1 x0 x1).1)
theorem scover0_A_1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) (y : S32x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S32x1.size (by sl_kernel_rfl) y
/-- The weight accumulator after an even point. -/
def sout0_A_1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) : Vec F S32x1 .f32 :=
  VS0_1.read (Elt F) (VS0_1.writes (Elt F) VS0_1.junk (kernelRun0_A c i arg2 harg2 arg3 harg3 arg4 harg4 arg5 harg5 arg6 harg6 arg7 harg7 hc0 hc1 x0 x1).2.1)

theorem cover0_B_2 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) (y : S1x32x512.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1x32x512.size (by sl_kernel_rfl) y
/-- The means' staging buffer after an odd point. -/
def out0_B_2 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) : Vec F S1x32x512 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)
theorem cover0_B_3 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) (y : S1x32x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1x32x1.size (by sl_kernel_rfl) y
/-- The total weights' staging buffer after an odd point. -/
def out0_B_3 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) : Vec F S1x32x1 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)
theorem scover0_B_0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) (y : S32x512.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S32x512.size (by sl_kernel_rfl) y
/-- The feature accumulator after an odd point. -/
def sout0_B_0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) : Vec F S32x512 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)
theorem scover0_B_1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) (y : S32x1.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL (kernelRun0_B c i arg2 harg2 arg3 harg3 arg4 harg4 arg5 harg5 arg6 harg6 arg7 harg7 hc0 hc1 x0 x1 xs0 xs1).2.2.2.1 S32x1.size (by sl_kernel_rfl) y
/-- The weight accumulator after an odd point. -/
def sout0_B_1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) : Vec F S32x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

/-! ## The two cases from a point's parity -/

theorem c0_of (t : Fin cfg0.N) (h0 : t.val % 2 = 0) : cond0_0 (grid0.coords t) := (hcond0_0 t).mpr h0
theorem not_c1_of (t : Fin cfg0.N) (h0 : t.val % 2 = 0) : ¬cond0_1 (grid0.coords t) := fun h => by
  have := (hcond0_1 t).mp h; omega
theorem not_c0_of (t : Fin cfg0.N) (h0 : ¬t.val % 2 = 0) : ¬cond0_0 (grid0.coords t) := fun h => h0 ((hcond0_0 t).mp h)
theorem c1_of (t : Fin cfg0.N) (h0 : ¬t.val % 2 = 0) : cond0_1 (grid0.coords t) := (hcond0_1 t).mpr (by omega)

/-! ## What the buffers hold after each point -/

/-- After the body at position `n`: the means' staging buffer, the total weights', the feature accumulator, the
    weight accumulator.  An even point starts afresh (the output buffers are not stored into: a placeholder nothing
    consults); an odd point adds to what the point before left in the accumulators. -/
def outsAt0 (c : Dev nD) : (n : ℕ) → n < cfg0.N → Vec F S1x32x512 .f32 × Vec F S1x32x1 .f32 × Vec F S32x512 .f32 × Vec F S32x1 .f32
  | 0, hn => have h0 : (⟨0, hn⟩ : Fin cfg0.N).val % 2 = 0 := Nat.zero_mod _
    (VO0_2.read (Elt F) VO0_2.junk, VO0_3.read (Elt F) VO0_3.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (c0_of ⟨0, hn⟩ h0) (not_c1_of ⟨0, hn⟩ h0) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (c0_of ⟨0, hn⟩ h0) (not_c1_of ⟨0, hn⟩ h0) (iblk m c 0 ⟨0, hn⟩) (iblk m c 1 ⟨0, hn⟩))
  | n + 1, hn =>
    if h0 : (⟨n + 1, hn⟩ : Fin cfg0.N).val % 2 = 0 then
      (VO0_2.read (Elt F) VO0_2.junk, VO0_3.read (Elt F) VO0_3.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (c0_of ⟨n + 1, hn⟩ h0) (not_c1_of ⟨n + 1, hn⟩ h0) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (c0_of ⟨n + 1, hn⟩ h0) (not_c1_of ⟨n + 1, hn⟩ h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (not_c0_of ⟨n + 1, hn⟩ h0) (c1_of ⟨n + 1, hn⟩ h0) (iblk m c 0 ⟨n + 1, hn⟩) (iblk m c 1 ⟨n + 1, hn⟩) (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (not_c0_of ⟨n + 1, hn⟩ h0) (c1_of ⟨n + 1, hn⟩ h0) (iblk m c 0 ⟨n + 1, hn⟩) (iblk m c 1 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (not_c0_of ⟨n + 1, hn⟩ h0) (c1_of ⟨n + 1, hn⟩ h0) (iblk m c 0 ⟨n + 1, hn⟩) (iblk m c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (not_c0_of ⟨n + 1, hn⟩ h0) (c1_of ⟨n + 1, hn⟩ h0) (iblk m c 0 ⟨n + 1, hn⟩) (iblk m c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 2 = 0) :
    outsAt0 m c t.val t.isLt = (VO0_2.read (Elt F) VO0_2.junk, VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd (Nat.zero_mod _) h0
  | succ n => exact (dif_neg h0).trans rfl

/-! ## The region invariant -/

/-- Before position `n`: before the first point the class's invariant (the accumulators at anything); afterwards
    the two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body each input's buffer at its block and the outputs' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point's parity says which case it is in; the
    invariant hands the body the accumulators (at anything at the first point, else at what the point before left)
    and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  by_cases h0 : t.val % 2 = 0
  · rw [Dat.leavesExact_idle (dats m 0 c) 2 t (idleAt0_2_A t (c0_of t h0) (not_c1_of t h0)) (noFlush0_2_A t (c0_of t h0) (not_c1_of t h0))]
    rw [Dat.leavesExact_idle (dats m 0 c) 3 t (idleAt0_3_A t (c0_of t h0) (not_c1_of t h0)) (noFlush0_3_A t (c0_of t h0) (not_c1_of t h0))]
    rw [outsAt0_A m c t h0]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t))
          unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t))
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t))
          unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t))
        iexact Hg
      isplitl [Ho]; · iexact Ho
      isplitl [H0]; · iexact H0
      isplitl [H1]; · iexact H1
      isplitl [H2]; · iexists _; iexact H2
      iexists _; iexact H3
  · rw [show (dats m 0 c).leavesExact 2 t = owns (c : Thread nD τ) (ms0_2 t) fullShare ((dats m 0 c).after 2 t) from by
        unfold Dat.leavesExact; rw [liveAt0_2_B t (not_c0_of t h0) (c1_of t h0)], after0_2]
    rw [show (dats m 0 c).leavesExact 3 t = owns (c : Thread nD τ) (ms0_3 t) fullShare ((dats m 0 c).after 3 t) from by
        unfold Dat.leavesExact; rw [liveAt0_3_B t (not_c0_of t h0) (c1_of t h0)], after0_3]
    rw [outsAt0_B m c t h0]
    unfold out0_B_2 out0_B_3 sout0_B_0 sout0_B_1; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2)
        unfold owns; iexists _; isplitr
        swap; · iexact HS1
        ipureintro; exact View.read_writes_of_cover _ _ _ _ _ (scover0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2)
    unfold owns; iexists _; isplitr
    swap; · iexact H3
    ipureintro; exact View.read_writes_of_cover _ _ _ _ _ (cover0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim at any float instance: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Seg

end
-- ==== Proof.IdealKit.lean ====
/-
  The frame of the segment-mean kernel, first part: everything about @main and the schedule that the runs of the
  kernel body are stated over.

  @main is one region (the kernel on its 8 × 2 grid: object `b`, half `k` of the object's points) followed by 127 host
  lines in 13 stretches.  Here: the contents of the core's buffers when the region is entered (nothing runs before
  it, so they are the launch contents); @main as "the region, then the 13 stretches"; the three things the lines
  after the region owe the frame run (they touch unscoped buffers only, allocate nothing, and write neither an
  argument nor one of the kernel's two result arrays — each line writes only its own result buffer); a window's
  block at a grid point read off its array; an input window's staging buffer holds its block at every point; the
  frame claim's post from a frame run's; the body's two branch conditions decided over the grid (the first holds
  at the even points, `k = 0`: the accumulators are cleared; the second at the odd points, `k = 1`: the means and the
  total weights are stored); where the two output windows are idle; and the region invariant's scoped part as the
  two accumulators owned at some contents.
-/
import proofs.«168626_j28896539967630_2_alg».proof.Proof.Gen.KernelIdeal.Launch
import proofs.«168626_j28896539967630_2_alg».proof.Proof.Gen.KernelIdeal.Skeleton
import proofs.«168626_j28896539967630_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The 13 stretches of host lines after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- Core `c`'s buffer contents when the region is entered: no host line runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The buffers the lines after the region leave alone: the five arguments and the kernel's two results. -/
abbrev kept : List (Ref sig .tc) := [main_arg0, main_arg1, main_arg2, main_arg3, main_arg4, main_v0_0, main_v0_1]

theorem hostOps1_fresh : (hostOps1 : List (HloOp τ sig (Elt F))).Forall fun op => op.fresh = ∅ := by
  simp only [List.Forall]; repeat' constructor
theorem hostOps1_keeps : (hostOps1 : List (HloOp τ sig (Elt F))).Forall fun op => (kept).Forall fun r => Proc.devRef .tc r ∉ op.writes := by
  simp only [hostOps1, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op => (kept).Forall fun r => Proc.devRef .tc r ∉ op.writes := by
  simp only [hostOps1_1, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op => (kept).Forall fun r => Proc.devRef .tc r ∉ op.writes := by
  simp only [hostOps1_2, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op => (kept).Forall fun r => Proc.devRef .tc r ∉ op.writes := by
  simp only [hostOps1_3, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op => (kept).Forall fun r => Proc.devRef .tc r ∉ op.writes := by
  simp only [hostOps1_4, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op => (kept).Forall fun r => Proc.devRef .tc r ∉ op.writes := by
  simp only [hostOps1_5, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op => (kept).Forall fun r => Proc.devRef .tc r ∉ op.writes := by
  simp only [hostOps1_6, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op => (kept).Forall fun r => Proc.devRef .tc r ∉ op.writes := by
  simp only [hostOps1_7, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op => (kept).Forall fun r => Proc.devRef .tc r ∉ op.writes := by
  simp only [hostOps1_8, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op => (kept).Forall fun r => Proc.devRef .tc r ∉ op.writes := by
  simp only [hostOps1_9, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op => (kept).Forall fun r => Proc.devRef .tc r ∉ op.writes := by
  simp only [hostOps1_10, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op => (kept).Forall fun r => Proc.devRef .tc r ∉ op.writes := by
  simp only [hostOps1_11, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op => (kept).Forall fun r => Proc.devRef .tc r ∉ op.writes := by
  simp only [hostOps1_12, kept, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- Every line after the region touches TensorCore references only. -/
theorem tail_sub : (tailOps : List (List (HloOp τ sig (Elt F)))).Forall fun ops => ops.Forall fun op => op.bufs ⊆ StableHlo.tcRefs τ sig := by
  simp only [tailOps, List.Forall]
  exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩
/-- None allocates. -/
theorem tail_fresh : (tailOps : List (List (HloOp τ sig (Elt F)))).Forall fun ops => ops.Forall fun op => op.fresh = ∅ := by
  simp only [tailOps, List.Forall]
  exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩
/-- None writes an argument or a result of the kernel. -/
theorem tail_keeps : (tailOps : List (List (HloOp τ sig (Elt F)))).Forall fun ops => ops.Forall fun op => (kept).Forall fun r => Proc.devRef .tc r ∉ op.writes := by
  simp only [tailOps, List.Forall]
  exact ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps⟩

/-- @main is the region continued by the 13 stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)
theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop
/-- A kept buffer is written by no line after the region. -/
theorem kept_not_written (r : Ref sig .tc) (hr : r ∈ (kept : List (Ref sig .tc))) :
    ∀ op ∈ (tailOps : List (List (HloOp τ sig (Elt F)))).flatten, Proc.devRef .tc r ∉ op.writes := by
  intro op hop
  obtain ⟨ops, hops, hop⟩ := List.mem_flatten.mp hop
  exact (List.forall_iff_forall_mem.mp ((List.forall_iff_forall_mem.mp ((List.forall_iff_forall_mem.mp tail_keeps) ops hops)) op hop)) r hr
theorem sfx_keeps : ∀ ops ∈ (tailOps : List (List (HloOp τ sig (Elt F)))), ∀ op ∈ ops,
    ∀ w, Proc.devRef .tc (Pipeline.arrRef spec0 w) ∉ op.writes := by
  intro ops hops op hop w
  refine (List.forall_iff_forall_mem.mp ((List.forall_iff_forall_mem.mp ((List.forall_iff_forall_mem.mp tail_keeps) ops hops)) op hop)) _ ?_
  fin_cases w <;> simp [kept]

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-- A kept buffer that is no array of the pipeline ends, after the lines, at its launch contents. -/
theorem W_kept (dats : (p : Fin 1) → (c : Dev nD) → Dat τ (Elt F) Unit ℕ (UR sig nD τ) ℕ (cfgs p) c) (c : Dev nD)
    (r : Ref sig .tc) (hr : r ∈ (kept : List (Ref sig .tc))) (hne : ∀ w, Pipeline.arrRef spec0 w ≠ r) :
    Pipeline.afterTail₀ cfgs dats 0 (V0 m) tailOps c r = V m c r := by
  unfold Pipeline.afterTail₀
  rw [StableHlo.after_of_forall_not_mem (b := Proc.devRef .tc r) _ _ (kept_not_written r hr),
    Pipeline.withArrays_of_ne _ c (V0 m c) _ r hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a frame run's post read at the five arguments
    is the frame claim's: the two staged arguments are input arrays (unchanged through the region, and no later
    line writes them), the other three bypass the region and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).1 0).trans (((dats 0 c).arrAt_in 0 rfl _).trans ((hA c 0).trans (V_main_arg0 m c))),
    ((h c).2 main_arg1 (Pipeline.mem_restRefs_of main_arg1 (by decide) (by decide))).trans ((W_kept m dats c main_arg1 (by simp [kept]) (by decide)).trans (V_main_arg1 m c)),
    ((h c).1 1).trans (((dats 0 c).arrAt_in 1 rfl _).trans ((hA c 1).trans (V_main_arg2 m c))),
    ((h c).2 main_arg3 (Pipeline.mem_restRefs_of main_arg3 (by decide) (by decide))).trans ((W_kept m dats c main_arg3 (by simp [kept]) (by decide)).trans (V_main_arg3 m c)),
    ((h c).2 main_arg4 (Pipeline.mem_restRefs_of main_arg4 (by decide) (by decide))).trans ((W_kept m dats c main_arg4 (by simp [kept]) (by decide)).trans (V_main_arg4 m c))⟩) h

/-! ## The body's branch conditions -/

/-- The first branch's condition (the accumulators are cleared), from the grid coordinates. -/
abbrev cond0_0 (i : grid0.Coords) : Prop := (Scalar.cmpi .ne (Scalar.extui (Scalar.cmpi .eq (BitVec.ofNat 32 (i 1).val) 0#32)) 0#32) = 1#1
/-- It holds at the even points: the first half of each object's points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second branch's condition (the means and total weights are stored). -/
abbrev cond0_1 (i : grid0.Coords) : Prop := k0_cond2 i = 1#1
/-- It holds at the odd points: the second half of each object's points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points the body stores nothing into the means' window, -/
theorem idleAt0_2_A : ∀ t : Fin cfg0.N, cond0_0 (grid0.coords t) → ¬cond0_1 (grid0.coords t) → cfg0.idle 2 (grid0.coords t) = true := by decide +kernel
/-- and the pipeline does not write its block back there. -/
theorem noFlush0_2_A : ∀ t : Fin cfg0.N, cond0_0 (grid0.coords t) → ¬cond0_1 (grid0.coords t) → (cfg0.win 2).flush t = false := by decide +kernel
/-- The same for the total weights' window. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At the odd points both output windows are stored into. -/
theorem liveAt0_2_B : ∀ t : Fin cfg0.N, ¬cond0_0 (grid0.coords t) → cond0_1 (grid0.coords t) → cfg0.idle 2 (grid0.coords t) = false := by decide +kernel
theorem liveAt0_3_B : ∀ t : Fin cfg0.N, ¬cond0_0 (grid0.coords t) → cond0_1 (grid0.coords t) → cfg0.idle 3 (grid0.coords t) = false := by decide +kernel

/-! ## The memrefs the body runs on -/

/-- One staging buffer of each output window, through which its contents are stated. -/
abbrev VO0_2 : View sig .tc .vmem S1x32x512 .f32 := (Memref.whole cc0_stg2_0 : Memref sig .tc .vmem S1x32x512 .f32).view
abbrev VO0_3 : View sig .tc .vmem S1x32x1 .f32 := (Memref.whole cc0_stg3_0 : Memref sig .tc .vmem S1x32x1 .f32).view
/-- Each window's current staging memref at point `t`, as the pipeline passes it, and its wholeness. -/
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x1 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S32x512 .f32 := Memref.whole cc0_scratch0
abbrev scM0_1 : Memref sig .tc .vmem S32x1 .f32 := Memref.whole cc0_scratch1
abbrev VS0_0 : View sig .tc .vmem S32x512 .f32 := scM0_0.view
abbrev VS0_1 : View sig .tc .vmem S32x1 .f32 := scM0_1.view

/-- The class's region invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Seg

end
-- ==== Proof.IdealRunA.lean ====
/-
  The kernel body at an EVEN grid point (the first half of an object's points): the first branch is taken, the
  second is not.  On whole staging memrefs — the two input windows' at their blocks `x0` (4096 points' features)
  and `x1` (the 32 masks' weights of those points), the two output windows' at contents handed back untouched, the
  two accumulators at anything — the body runs to its end: it clears both accumulators, then adds to them, and
  stores nothing else.  What the accumulators end with is found as the lists of pieces the run's stores leave.
-/
import proofs.«168626_j28896539967630_2_alg».proof.Proof.IdealKit

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_A (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) :
    Σ' (LS0 : List (View.Piece (Elt F) S32x512 .f32)), { LS1 : List (View.Piece (Elt F) S32x1 .f32) //
      ∀ (xi2 : Vec F S1x32x512 .f32) (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__seg_reduce_kernel i arg2 harg2 arg3 harg3 arg4 harg4 arg5 harg5 arg6 harg6 arg7 harg7) K } := by
  refine ⟨?_, ?_, fun xi2 xi3 E K => ?run⟩
  case run =>
    simp only [cc0__seg_reduce_kernel_eq_skeleton]; unfold cc0__seg_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Seg

end
-- ==== Proof.IdealRunB.lean ====
/-
  The kernel body at an ODD grid point (the second half of an object's points): the first branch is not taken,
  the second is.  On whole staging memrefs — the two input windows' at their blocks `x0` and `x1`, the two output
  windows' at anything, the two accumulators at what the point before left, `xs0` and `xs1` — the body runs to its
  end: it adds to both accumulators, then stores the quotient into the means' window and the total weights into
  theirs.  What the four buffers end with is found as the lists of pieces the run's stores leave.
-/
import proofs.«168626_j28896539967630_2_alg».proof.Proof.IdealRunA

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_B (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) :
    Σ' (L2 : List (View.Piece (Elt F) S1x32x512 .f32)) (L3 : List (View.Piece (Elt F) S1x32x1 .f32)) (LS0 : List (View.Piece (Elt F) S32x512 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__seg_reduce_kernel i arg2 harg2 arg3 harg3 arg4 harg4 arg5 harg5 arg6 harg6 arg7 harg7) K } := by
  refine ⟨?_, ?_, ?_, ?_, fun E K => ?run⟩
  case run =>
    simp only [cc0__seg_reduce_kernel_eq_skeleton]; unfold cc0__seg_reduce_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Seg

end
-- ==== Proof.IdealFrame.lean ====
/-
  The frame of the segment-mean kernel, last part.

  What the body leaves, case by case: at an even point the two accumulators hold the cleared-then-added sums of
  the point's blocks; at an odd point they hold the point's blocks added to what the point before left, and the two
  output windows' staging buffers hold the quotient and the total weights.  Point by point (`outsAt0`, by recursion
  on the point: an odd point reads what the even point before it left in the accumulators).  The region invariant
  carries the two accumulators at those contents from one point to the next.  With the proof data stated so, the
  body obligation holds at every point (the even and the odd case, each by its whole-body run), the launch theorem
  for a region followed by host lines gives the frame run, and the frame claim follows: the arguments end as
  launched.
-/
import proofs.«168626_j28896539967630_2_alg».proof.Proof.IdealRunB

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) (y : S32x512.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S32x512.size (by sl_kernel_rfl) y
/-- The feature accumulator after an even point: the run's pieces read back. -/
def sout0_A_0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) : Vec F S32x512 .f32 :=
  VS0_0.read (Elt F) (VS0_0.writes (Elt F) VS0_0.junk (kernelRun0_A c i arg2 harg2 arg3 harg3 arg4 harg4 arg5 harg5 arg6 harg6 arg7 harg7 hc0 hc1 x0 x1).1)
theorem scover0_A_1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) (y : S32x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S32x1.size (by sl_kernel_rfl) y
/-- The weight accumulator after an even point. -/
def sout0_A_1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) : Vec F S32x1 .f32 :=
  VS0_1.read (Elt F) (VS0_1.writes (Elt F) VS0_1.junk (kernelRun0_A c i arg2 harg2 arg3 harg3 arg4 harg4 arg5 harg5 arg6 harg6 arg7 harg7 hc0 hc1 x0 x1).2.1)

theorem cover0_B_2 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) (y : S1x32x512.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1x32x512.size (by sl_kernel_rfl) y
/-- The means' staging buffer after an odd point. -/
def out0_B_2 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) : Vec F S1x32x512 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1).1)
theorem cover0_B_3 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) (y : S1x32x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1x32x1.size (by sl_kernel_rfl) y
/-- The total weights' staging buffer after an odd point. -/
def out0_B_3 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) : Vec F S1x32x1 .f32 :=
  VO0_3.read (Elt F) (VO0_3.writes (Elt F) VO0_3.junk (kernelRun0_B c i arg2 harg2 arg3 harg3 arg4 harg4 arg5 harg5 arg6 harg6 arg7 harg7 hc0 hc1 x0 x1 xs0 xs1).2.1)
theorem scover0_B_0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) (y : S32x512.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S32x512.size (by sl_kernel_rfl) y
/-- The feature accumulator after an odd point. -/
def sout0_B_0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) : Vec F S32x512 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.2.1)
theorem scover0_B_1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) (y : S32x1.Idx) :
    ∃ pc ∈ (kernelRun0_B c i arg2 harg2 arg3 harg3 arg4 harg4 arg5 harg5 arg6 harg6 arg7 harg7 hc0 hc1 x0 x1 xs0 xs1).2.2.2.1, y ∈ pc.1.set :=
  View.cover_of_tiledL (kernelRun0_B c i arg2 harg2 arg3 harg3 arg4 harg4 arg5 harg5 arg6 harg6 arg7 harg7 hc0 hc1 x0 x1 xs0 xs1).2.2.2.1 S32x1.size (by sl_kernel_rfl) y
/-- The weight accumulator after an odd point. -/
def sout0_B_1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) : Vec F S32x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.2.1)

/-! ## The two cases from a point's parity -/

theorem c0_of (t : Fin cfg0.N) (h0 : t.val % 2 = 0) : cond0_0 (grid0.coords t) := (hcond0_0 t).mpr h0
theorem not_c1_of (t : Fin cfg0.N) (h0 : t.val % 2 = 0) : ¬cond0_1 (grid0.coords t) := fun h => by
  have := (hcond0_1 t).mp h; omega
theorem not_c0_of (t : Fin cfg0.N) (h0 : ¬t.val % 2 = 0) : ¬cond0_0 (grid0.coords t) := fun h => h0 ((hcond0_0 t).mp h)
theorem c1_of (t : Fin cfg0.N) (h0 : ¬t.val % 2 = 0) : cond0_1 (grid0.coords t) := (hcond0_1 t).mpr (by omega)

/-! ## What the buffers hold after each point -/

/-- After the body at position `n`: the means' staging buffer, the total weights', the feature accumulator, the
    weight accumulator.  An even point starts afresh (the output buffers are not stored into: a placeholder nothing
    consults); an odd point adds to what the point before left in the accumulators. -/
def outsAt0 (c : Dev nD) : (n : ℕ) → n < cfg0.N → Vec F S1x32x512 .f32 × Vec F S1x32x1 .f32 × Vec F S32x512 .f32 × Vec F S32x1 .f32
  | 0, hn => have h0 : (⟨0, hn⟩ : Fin cfg0.N).val % 2 = 0 := Nat.zero_mod _
    (VO0_2.read (Elt F) VO0_2.junk, VO0_3.read (Elt F) VO0_3.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (c0_of ⟨0, hn⟩ h0) (not_c1_of ⟨0, hn⟩ h0) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (c0_of ⟨0, hn⟩ h0) (not_c1_of ⟨0, hn⟩ h0) (iblk m c 0 ⟨0, hn⟩) (iblk m c 1 ⟨0, hn⟩))
  | n + 1, hn =>
    if h0 : (⟨n + 1, hn⟩ : Fin cfg0.N).val % 2 = 0 then
      (VO0_2.read (Elt F) VO0_2.junk, VO0_3.read (Elt F) VO0_3.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (c0_of ⟨n + 1, hn⟩ h0) (not_c1_of ⟨n + 1, hn⟩ h0) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (c0_of ⟨n + 1, hn⟩ h0) (not_c1_of ⟨n + 1, hn⟩ h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (not_c0_of ⟨n + 1, hn⟩ h0) (c1_of ⟨n + 1, hn⟩ h0) (iblk m c 0 ⟨n + 1, hn⟩) (iblk m c 1 ⟨n + 1, hn⟩) (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (not_c0_of ⟨n + 1, hn⟩ h0) (c1_of ⟨n + 1, hn⟩ h0) (iblk m c 0 ⟨n + 1, hn⟩) (iblk m c 1 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (not_c0_of ⟨n + 1, hn⟩ h0) (c1_of ⟨n + 1, hn⟩ h0) (iblk m c 0 ⟨n + 1, hn⟩) (iblk m c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (not_c0_of ⟨n + 1, hn⟩ h0) (c1_of ⟨n + 1, hn⟩ h0) (iblk m c 0 ⟨n + 1, hn⟩) (iblk m c 1 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 2 = 0) :
    outsAt0 m c t.val t.isLt = (VO0_2.read (Elt F) VO0_2.junk, VO0_3.read (Elt F) VO0_3.junk, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t)) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd (Nat.zero_mod _) h0
  | succ n => exact (dif_neg h0).trans rfl

/-! ## The region invariant -/

/-- Before position `n`: before the first point the class's invariant (the accumulators at anything); afterwards
    the two accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The arrays as the region finds them; after the body each input's buffer at its block and the outputs' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point's parity says which case it is in; the
    invariant hands the body the accumulators (at anything at the first point, else at what the point before left)
    and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  by_cases h0 : t.val % 2 = 0
  · rw [Dat.leavesExact_idle (dats m 0 c) 2 t (idleAt0_2_A t (c0_of t h0) (not_c1_of t h0)) (noFlush0_2_A t (c0_of t h0) (not_c1_of t h0))]
    rw [Dat.leavesExact_idle (dats m 0 c) 3 t (idleAt0_3_A t (c0_of t h0) (not_c1_of t h0)) (noFlush0_3_A t (c0_of t h0) (not_c1_of t h0))]
    rw [outsAt0_A m c t h0]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t))
          unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t))
        iexact Hg
      isplitl [Ho]; · iexact Ho
      isplitl [H0]; · iexact H0
      isplitl [H1]; · iexact H1
      isplitl [H2]; · iexists _; iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t))
          unfold owns; iexists _; isplitr
          swap; · iexact HS1
          ipureintro; exact View.read_writes_of_cover _ _ _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (c0_of t h0) (not_c1_of t h0) (iblk m c 0 t) (iblk m c 1 t))
        iexact Hg
      isplitl [Ho]; · iexact Ho
      isplitl [H0]; · iexact H0
      isplitl [H1]; · iexact H1
      isplitl [H2]; · iexists _; iexact H2
      iexists _; iexact H3
  · rw [show (dats m 0 c).leavesExact 2 t = owns (c : Thread nD τ) (ms0_2 t) fullShare ((dats m 0 c).after 2 t) from by
        unfold Dat.leavesExact; rw [liveAt0_2_B t (not_c0_of t h0) (c1_of t h0)], after0_2]
    rw [show (dats m 0 c).leavesExact 3 t = owns (c : Thread nD τ) (ms0_3 t) fullShare ((dats m 0 c).after 3 t) from by
        unfold Dat.leavesExact; rw [liveAt0_3_B t (not_c0_of t h0) (c1_of t h0)], after0_3]
    rw [outsAt0_B m c t h0]
    unfold out0_B_2 out0_B_3 sout0_B_0 sout0_B_1; (try dsimp only)
    have hz : t.val ≠ 0 := fun hz => h0 (by rw [hz])
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2)
        unfold owns; iexists _; isplitr
        swap; · iexact HS1
        ipureintro; exact View.read_writes_of_cover _ _ _ _ _ (scover0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2)
    unfold owns; iexists _; isplitr
    swap; · iexact H3
    ipureintro; exact View.read_writes_of_cover _ _ _ _ _ (cover0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (not_c0_of t h0) (c1_of t h0) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim at any float instance: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Seg

end
-- ==== Proof.IdealPieces.lean ====
/-
  What the two whole-body runs leave, read back as values of the body's payloads.

  An even point clears both accumulators and then adds the point's block to them: the feature accumulator ends at
  the accumulating payload of the point's two blocks over the cleared contents, the weight accumulator likewise.
  An odd point adds its block to what the point before left, then stores the quotient payload of the two NEW
  accumulator contents into the means' window and the new weight accumulator into the total weights' window.
  Each is the last covering store's payload: the stores are whole-buffer stores, so the last one decides.
-/
import proofs.«168626_j28896539967630_2_alg».proof.Proof.IdealFrame
import Idealize.ShloMosaic.Lib.Pipeline.Value

set_option maxRecDepth 16384

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Even point, feature accumulator: cleared, then the block's products added. -/
theorem sA0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) :
    sout0_A_0 c i arg2 harg2 arg3 harg3 arg4 harg4 arg5 harg5 arg6 harg6 arg7 harg7 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S32x512) hz2, View.readCov_unit_zero (S := S32x512) _ hz2]
  simp only [View.readAt_eq_ld, harg2.read_unread, harg3.read_unread, harg6.read_unread, harg7.read_unread, View.ld_unit_zero (S := S4096x512) hz2, View.ld_unit_zero (S := S1x32x4096) hz3, View.ld_unit_zero (S := S32x512) hz2, View.ld_unit_zero (S := S32x1) hz2]

/-- Even point, weight accumulator: cleared, then the block's weights added. -/
theorem sA1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S4096x512 .f32) (x1 : Vec F S1x32x4096 .f32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S32x1) hz2, View.readCov_unit_zero (S := S32x1) _ hz2]
  simp only [View.readAt_eq_ld, harg2.read_unread, harg3.read_unread, harg6.read_unread, harg7.read_unread, View.ld_unit_zero (S := S4096x512) hz2, View.ld_unit_zero (S := S1x32x4096) hz3, View.ld_unit_zero (S := S32x512) hz2, View.ld_unit_zero (S := S32x1) hz2]

/-- Odd point, feature accumulator: the block's products added to what the point before left. -/
theorem sB0 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) :
    sout0_B_0 c i arg2 harg2 arg3 harg3 arg4 harg4 arg5 harg5 arg6 harg6 arg7 harg7 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S4096x512) hz2, View.ld_unit_zero (S := S1x32x4096) hz3, View.ld_unit_zero (S := S32x512) hz2, View.ld_unit_zero (S := S32x1) hz2]

/-- Odd point, weight accumulator. -/
theorem sB1 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S4096x512) hz2, View.ld_unit_zero (S := S1x32x4096) hz3, View.ld_unit_zero (S := S32x512) hz2, View.ld_unit_zero (S := S32x1) hz2]

/-- Odd point, the means' window: the new feature accumulator over the new weight accumulator plus ε. -/
theorem oB2 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) :
    out0_B_2 c i arg2 harg2 arg3 harg3 arg4 harg4 arg5 harg5 arg6 harg6 arg7 harg7 hc0 hc1 x0 x1 xs0 xs1 = k0_pay6 (k0_pay5 x1 xs1) (k0_pay4 x0 x1 xs0) := by
  unfold out0_B_2
  rw [View.read_writes_eq_canon _ _ _ (cover0_B_2 c i arg2 harg2 arg3 harg3 arg4 harg4 arg5 harg5 arg6 harg6 arg7 harg7 hc0 hc1 x0 x1 xs0 xs1)]
  unfold kernelRun0_B
  dsimp only
  sl_unfold_words
  rw [View.canon_unit_zero hz3, View.readCov_unit_zero (S := S32x1) _ hz2, View.readCov_unit_zero (S := S32x512) _ hz2]
  simp only [View.readAt_eq_ld, harg2.read_unread, harg3.read_unread, harg6.read_unread, harg7.read_unread, View.ld_unit_zero (S := S4096x512) hz2, View.ld_unit_zero (S := S1x32x4096) hz3, View.ld_unit_zero (S := S32x512) hz2, View.ld_unit_zero (S := S32x1) hz2]

/-- Odd point, the total weights' window: the new weight accumulator. -/
theorem oB3 (c : Dev nD) (i : grid0.Coords) (arg2 : Memref sig .tc .vmem S4096x512 .f32) (harg2 : arg2.IsWhole) (arg3 : Memref sig .tc .vmem S1x32x4096 .f32) (harg3 : arg3.IsWhole) (arg4 : Memref sig .tc .vmem S1x32x512 .f32) (harg4 : arg4.IsWhole) (arg5 : Memref sig .tc .vmem S1x32x1 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S4096x512 .f32) (x1 : Vec F S1x32x4096 .f32) (xs0 : Vec F S32x512 .f32) (xs1 : Vec F S32x1 .f32) :
    out0_B_3 c i arg2 harg2 arg3 harg3 arg4 harg4 arg5 harg5 arg6 harg6 arg7 harg7 hc0 hc1 x0 x1 xs0 xs1 = k0_pay7 (k0_pay5 x1 xs1) := by
  unfold out0_B_3
  rw [View.read_writes_eq_canon _ _ _ (cover0_B_3 c i arg2 harg2 arg3 harg3 arg4 harg4 arg5 harg5 arg6 harg6 arg7 harg7 hc0 hc1 x0 x1 xs0 xs1)]
  unfold kernelRun0_B
  dsimp only
  sl_unfold_words
  rw [View.canon_unit_zero hz3, View.readCov_unit_zero (S := S32x1) _ hz2]
  simp only [View.readAt_eq_ld, harg2.read_unread, harg3.read_unread, harg6.read_unread, harg7.read_unread, View.ld_unit_zero (S := S4096x512) hz2, View.ld_unit_zero (S := S1x32x4096) hz3, View.ld_unit_zero (S := S32x512) hz2, View.ld_unit_zero (S := S32x1) hz2]

end Cert.KernelIdeal.Seg

end
-- ==== Proof.IdealPayloads.lean ====
/-
  The kernel body's arithmetic read at one entry, at the ideal instance (floats are extended reals, every operation
  exact, a change of format the identity).

  At a grid point the body holds a block `v3` of 4096 points' features ([4096, 512]) and the block `v4` of the 32
  masks' weights of those points ([1, 32, 4096]).  Its two accumulating stores write, at mask `r` and feature `d`,
      the old entry plus  Σ_p  v4[0, r, p] · v3[p, d]          (a matrix product into a zero accumulator, added on)
  and at mask `r`
      the old entry plus  Σ_p  v4[0, r, p]                      (a sum along the points' axis, added on),
  its clearing stores write zeros, and its two final stores write the feature accumulator's entry divided by the
  weight accumulator's entry plus the literal ε, and the weight accumulator's entry itself.
-/
import proofs.«168626_j28896539967630_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.SegValue

open Cert.KernelIdeal Cert.KernelIdeal.Gen
open Idealize.ShloMosaic Idealize.ShloMosaic.ValueIdx

/-- The weights' block without its leading unit axis. -/
theorem pay3_apply (v4 : Vec Ideal S1x32x4096 .f32) (r : Fin 32) (p : Fin 4096) :
    k0_pay3 (F := Ideal) v4 (ix2 r p) = v4 (ix3 (0 : Fin 1) r p) := by
  unfold k0_pay3
  exact shapeCast_apply v4 shapeCasts_S1x32x4096_S32x4096 (ix2 r p) (ix3 (0 : Fin 1) r p) (by
    rewrite [Shape.rowMajor_val_three, Shape.rowMajor_val_two]
    show ((0 : Nat) * 32 + r.val) * 4096 + p.val = r.val * 4096 + p.val
    omega)

theorem lhs_0 (i : S32x512.Idx) (q : dot_S32x4096_S4096x512_S32x512_1_0_0_1_n_n.contr.Idx) :
    (dot_S32x4096_S4096x512_S32x512_1_0_0_1_n_n.lhsIdx i q 0).val = (i 0).val := by
  unfold DotDims.lhsIdx
  rw [dif_neg (show ¬(0 : Fin S32x4096.rank) ∈ dot_S32x4096_S4096x512_S32x512_1_0_0_1_n_n.lhsBatch by decide), dif_pos (show (0 : Fin S32x4096.rank) ∈ dot_S32x4096_S4096x512_S32x512_1_0_0_1_n_n.lhsNonContracting by decide)]
  rfl
theorem lhs_1 (i : S32x512.Idx) (q : dot_S32x4096_S4096x512_S32x512_1_0_0_1_n_n.contr.Idx) :
    (dot_S32x4096_S4096x512_S32x512_1_0_0_1_n_n.lhsIdx i q 1).val = (q ⟨0, by decide⟩).val :=
  dot_S32x4096_S4096x512_S32x512_1_0_0_1_n_n.lhsIdx_val_of_single rfl i q
theorem rhs_0 (i : S32x512.Idx) (q : dot_S32x4096_S4096x512_S32x512_1_0_0_1_n_n.contr.Idx) :
    (dot_S32x4096_S4096x512_S32x512_1_0_0_1_n_n.rhsIdx i q 0).val = (q ⟨0, by decide⟩).val :=
  dot_S32x4096_S4096x512_S32x512_1_0_0_1_n_n.rhsIdx_val_of_single rfl i q
theorem rhs_1 (i : S32x512.Idx) (q : dot_S32x4096_S4096x512_S32x512_1_0_0_1_n_n.contr.Idx) :
    (dot_S32x4096_S4096x512_S32x512_1_0_0_1_n_n.rhsIdx i q 1).val = (i 1).val := by
  unfold DotDims.rhsIdx
  rw [dif_neg (show ¬(1 : Fin S4096x512.rank) ∈ dot_S32x4096_S4096x512_S32x512_1_0_0_1_n_n.rhsBatch by decide), dif_pos (show (1 : Fin S4096x512.rank) ∈ dot_S32x4096_S4096x512_S32x512_1_0_0_1_n_n.rhsNonContracting by decide)]
  rfl

/-- The matrix product of the block's weights with the block's features, into a zero accumulator, at mask `r`
    and feature `d`: the sum over the block's points. -/
theorem matmul_entry (lhs : FVec Ideal S32x4096 .bf16) (rhs : FVec Ideal S4096x512 .bf16) (r : Fin 32) (d : Fin 512) :
    FloatOps.matmul dot_S32x4096_S4096x512_S32x512_1_0_0_1_n_n none lhs rhs (constant S32x512 .f32 0x00000000#32) (ix2 r d)
      = ∑ p : Fin 4096, lhs (ix2 r p) * rhs (ix2 p d) := by
  rw [Ideal.matmul_constant_zero_apply, ← Equiv.sum_comp (contrEquiv1 dot_S32x4096_S4096x512_S32x512_1_0_0_1_n_n 4096 rfl rfl).symm]
  refine Finset.sum_congr rfl fun p _ => ?_
  have hk := contrEquiv1_symm_val dot_S32x4096_S4096x512_S32x512_1_0_0_1_n_n 4096 rfl rfl p
  have el : dot_S32x4096_S4096x512_S32x512_1_0_0_1_n_n.lhsIdx (ix2 r d) ((contrEquiv1 dot_S32x4096_S4096x512_S32x512_1_0_0_1_n_n 4096 rfl rfl).symm p) = ix2 r p := funext fun a => Fin.ext (by
    match a with
    | ⟨0, _⟩ => exact lhs_0 _ _
    | ⟨1, _⟩ => exact (lhs_1 _ _).trans hk)
  have er : dot_S32x4096_S4096x512_S32x512_1_0_0_1_n_n.rhsIdx (ix2 r d) ((contrEquiv1 dot_S32x4096_S4096x512_S32x512_1_0_0_1_n_n 4096 rfl rfl).symm p) = ix2 p d := funext fun a => Fin.ext (by
    match a with
    | ⟨0, _⟩ => exact (rhs_0 _ _).trans hk
    | ⟨1, _⟩ => exact rhs_1 _ _)
  rw [el, er]

/-- The feature accumulator's new entry: the old one plus the block's weighted sum of feature `d`. -/
theorem pay4_apply (v3 : Vec Ideal S4096x512 .f32) (v4 : Vec Ideal S1x32x4096 .f32) (v8 : Vec Ideal S32x512 .f32)
    (r : Fin 32) (d : Fin 512) :
    k0_pay4 (F := Ideal) v3 v4 v8 (ix2 r d) = v8 (ix2 r d) + ∑ p : Fin 4096, v4 (ix3 (0 : Fin 1) r p) * v3 (ix2 p d) := by
  unfold k0_pay4
  rw [shapeCast_self]
  refine (addf_apply _ _ _).trans ?_
  refine congrArg (v8 (ix2 r d) + ·) ?_
  refine (matmul_entry _ _ r d).trans ?_
  refine Finset.sum_congr rfl fun p _ => ?_
  rw [truncf_apply, truncf_apply, pay3_apply]

/-- The sum of a mask's weights along the block's points. -/
theorem rowsum_entry (src : FVec Ideal S32x4096 .f32) (hφ : FKind.Formats .f32)
    (hacc : (0x00000000#32 : BitVec 32) = FKind.add.neutral .f32 hφ) (r : Fin 32) :
    multiReduction .add [1] S32 src 0x00000000#32 reduces_S32x4096_S32 hφ hacc (ix1 r) = ∑ p : Fin 4096, src (ix2 r p) := by
  refine (Ideal.multiReduction_add_single src 0x00000000#32 reduces_S32x4096_S32 hφ hacc (ix1 r)).trans ?_
  refine Finset.sum_congr rfl fun p _ => congrArg src ?_
  funext a
  apply Fin.ext
  match a with
  | ⟨0, _⟩ => rfl
  | ⟨1, _⟩ => rfl

/-- The weight accumulator's new entry: the old one plus the block's total weight of mask `r`. -/
theorem pay5_apply (v4 : Vec Ideal S1x32x4096 .f32) (v14 : Vec Ideal S32x1 .f32) (r : Fin 32) :
    k0_pay5 (F := Ideal) v4 v14 (ix2 r (0 : Fin 1)) = v14 (ix2 r (0 : Fin 1)) + ∑ p : Fin 4096, v4 (ix3 (0 : Fin 1) r p) := by
  unfold k0_pay5
  rw [shapeCast_self]
  refine (addf_apply _ _ _).trans ?_
  refine congrArg (v14 (ix2 r (0 : Fin 1)) + ·) ?_
  refine (shapeCast_apply _ shapeCasts_S32_S32x1 (ix2 r (0 : Fin 1)) (ix1 r) (by
    rewrite [Shape.rowMajor_val_one, Shape.rowMajor_val_two]
    show r.val = r.val * 1 + 0
    omega)).trans ?_
  refine (rowsum_entry _ _ _ r).trans ?_
  refine Finset.sum_congr rfl fun p _ => ?_
  rw [pay3_apply]

/-- The clearing stores write zeros. -/
theorem pay1_apply (i : S32x512.Idx) : k0_pay1 (F := Ideal) i = 0 := by
  unfold k0_pay1
  rw [shapeCast_self]
  exact Ideal.ofBits_zero_f32
theorem pay2_apply (i : S32x1.Idx) : k0_pay2 (F := Ideal) i = 0 := by
  unfold k0_pay2
  rw [shapeCast_self]
  exact Ideal.ofBits_zero_f32

/-- The means' store: the feature accumulator's entry over the weight accumulator's entry plus ε. -/
theorem pay6_apply (v24 : Vec Ideal S32x1 .f32) (v25 : Vec Ideal S32x512 .f32) (r : Fin 32) (d : Fin 512) :
    k0_pay6 (F := Ideal) v24 v25 (ix3 (0 : Fin 1) r d)
      = Ideal.div (v25 (ix2 r d)) (v24 (ix2 r (0 : Fin 1)) + Ideal.ofBits .f32 0x2B8CBCCC#32) := by
  unfold k0_pay6
  refine (shapeCast_apply _ shapeCasts_S32x512_S1x32x512 (ix3 (0 : Fin 1) r d) (ix2 r d) (by
    rewrite [Shape.rowMajor_val_three, Shape.rowMajor_val_two]
    show r.val * 512 + d.val = ((0 : Nat) * 32 + r.val) * 512 + d.val
    omega)).trans ?_
  refine (divf_apply _ _ _).trans ?_
  refine congrArg (Ideal.div (v25 (ix2 r d))) ?_
  refine (broadcastTo_apply _ broadcasts_S32x1_S32x512 (ix2 r d) (ix2 r (0 : Fin 1)) (fun a => by
    match a with
    | ⟨0, _⟩ => rfl
    | ⟨1, _⟩ => rfl)).trans ?_
  rfl

/-- The total weights' store: the weight accumulator's entry. -/
theorem pay7_apply (v24 : Vec Ideal S32x1 .f32) (r : Fin 32) :
    k0_pay7 (F := Ideal) v24 (ix3 (0 : Fin 1) r (0 : Fin 1)) = v24 (ix2 r (0 : Fin 1)) := by
  unfold k0_pay7
  exact shapeCast_apply _ shapeCasts_S32x1_S1x32x1 (ix3 (0 : Fin 1) r (0 : Fin 1)) (ix2 r (0 : Fin 1)) (by
    rewrite [Shape.rowMajor_val_three, Shape.rowMajor_val_two]
    show r.val * 1 + 0 = ((0 : Nat) * 32 + r.val) * 1 + 0
    omega)

end Cert.KernelIdeal.SegValue

end
-- ==== Proof.Spec.lean ====
/-
  The mathematics both programs compute before their common last lines, stated once over the argument arrays.

  There are 8 objects of 8192 points each and 32 masks per object.  Row `b * 8192 + p` of the feature table
  `x0 : [65536, 512]` is point `p` of object `b`; `x2 : [8, 32, 8192]` weighs point `p` of object `b` in mask `m`.
  For mask `m` of object `b`:
    * `count` is the sum of the weights over the object's points,
    * `feat` at feature `d` is the weighted sum of the points' feature `d`,
    * `mean` is `feat / (count + ε)`, ε the single-precision literal both programs carry (read as its exact value;
      the same word on both sides, never evaluated).
  The arrays both programs go on with are these laid out over the 256 = 8 · 32 masks: row `r` is mask `r % 32` of
  object `r / 32`.
-/
import Idealize.ShloMosaic.PureOps.Ideal
import Idealize.ShloMosaic.Lib.ValueIdx

noncomputable section

open scoped BigOperators

namespace Cert.SegMean

open Idealize.ShloMosaic Idealize.ShloMosaic.ValueIdx

/-- The feature table: one row of 512 features per point, the objects' points one object after the other. -/
abbrev Net : Type := (⟨2, ![65536, 512]⟩ : Shape).Idx → EReal
/-- The weights: per object, per mask, per point of the object. -/
abbrev Mask : Type := (⟨3, ![8, 32, 8192]⟩ : Shape).Idx → EReal

/-- The table row holding point `p` of object `b`. -/
def row (b : Fin 8) (p : Fin 8192) : Fin 65536 := ⟨b.val * 8192 + p.val, by have := b.isLt; have := p.isLt; omega⟩

@[simp] theorem row_val (b : Fin 8) (p : Fin 8192) : (row b p).val = b.val * 8192 + p.val := rfl

/-- The total weight of mask `m` of object `b`. -/
def count (x2 : Mask) (b : Fin 8) (m : Fin 32) : EReal := ∑ p : Fin 8192, x2 (ix3 b m p)

/-- The weighted sum of feature `d` over the points of object `b`, weights of mask `m`. -/
def feat (x0 : Net) (x2 : Mask) (b : Fin 8) (m : Fin 32) (d : Fin 512) : EReal :=
  ∑ p : Fin 8192, x2 (ix3 b m p) * x0 (ix2 (row b p) d)

/-- The literal added to the total weight before dividing. -/
def eps : EReal := Ideal.ofBits .f32 0x2B8CBCCC#32

/-- The weighted mean of feature `d`: the weighted sum over the total weight plus ε. -/
def mean (x0 : Net) (x2 : Mask) (b : Fin 8) (m : Fin 32) (d : Fin 512) : EReal :=
  Ideal.div (feat x0 x2 b m d) (count x2 b m + eps)

/-- The object of row `r` of the 256 masks. -/
def obj (r : Fin 256) : Fin 8 := ⟨r.val / 32, by have := r.isLt; omega⟩
/-- The mask, within its object, of row `r` of the 256 masks. -/
def msk (r : Fin 256) : Fin 32 := ⟨r.val % 32, Nat.mod_lt _ (by decide)⟩

@[simp] theorem obj_val (r : Fin 256) : (obj r).val = r.val / 32 := rfl
@[simp] theorem msk_val (r : Fin 256) : (msk r).val = r.val % 32 := rfl

/-- The means over the 256 masks: what both programs multiply the text embeddings with. -/
def avg256 (x0 : Net) (x2 : Mask) : (⟨2, ![256, 512]⟩ : Shape).Idx → EReal :=
  fun i => mean x0 x2 (obj (i 0)) (msk (i 0)) (i 1)

/-- The total weights over the 256 masks: what both programs test for emptiness. -/
def cnt256 (x2 : Mask) : (⟨1, ![256]⟩ : Shape).Idx → EReal :=
  fun i => count x2 (obj (i 0)) (msk (i 0))

/-- The means in the layout the kernel writes them: object, mask, feature. -/
def mean3 (x0 : Net) (x2 : Mask) : (⟨3, ![8, 32, 512]⟩ : Shape).Idx → EReal :=
  fun i => mean x0 x2 (i 0) (i 1) (i 2)

/-- The total weights in the layout the kernel writes them: object, mask, one column. -/
def count3 (x2 : Mask) : (⟨3, ![8, 32, 1]⟩ : Shape).Idx → EReal :=
  fun i => count x2 (i 0) (i 1)

end Cert.SegMean

end
-- ==== Proof.SpecHalves.lean ====
/-
  An object's 8192 points are two halves of 4096, and the kernel visits them one half per grid step, starting each
  object from zero.  So the specification's two sums over an object's points are what the two-step accumulation
  ends with:  (0 + Σ over the first half) + Σ over the second half.  Addition of extended reals is commutative and
  associative with neutral 0, which is all this uses: nothing here needs the terms to be finite.
-/
import proofs.«168626_j28896539967630_2_alg».proof.Proof.Spec

noncomputable section

open scoped BigOperators

namespace Cert.SegMean

open Idealize.ShloMosaic Idealize.ShloMosaic.ValueIdx

/-- Point `p` of the first half, among the object's 8192 points. -/
def lo (p : Fin 4096) : Fin 8192 := ⟨p.val, by have := p.isLt; omega⟩
/-- Point `p` of the second half. -/
def hi (p : Fin 4096) : Fin 8192 := ⟨4096 + p.val, by have := p.isLt; omega⟩

@[simp] theorem lo_val (p : Fin 4096) : (lo p).val = p.val := rfl
@[simp] theorem hi_val (p : Fin 4096) : (hi p).val = 4096 + p.val := rfl

/-- A sum over the 8192 points is the sum over the first half plus the sum over the second. -/
theorem sum_halves {M : Type} [AddCommMonoid M] (f : Fin 8192 → M) :
    ∑ p : Fin 8192, f p = ∑ p : Fin 4096, f (lo p) + ∑ p : Fin 4096, f (hi p) :=
  (Fin.sum_univ_add (a := 4096) (b := 4096) f).trans (by
    congr 1 <;> exact Finset.sum_congr rfl fun p _ => congrArg f (Fin.ext rfl))

/-- The total weight, accumulated from zero one half at a time. -/
theorem count_halves (x2 : Mask) (b : Fin 8) (r : Fin 32) :
    count x2 b r = ((0 : EReal) + ∑ p : Fin 4096, x2 (ix3 b r (lo p))) + ∑ p : Fin 4096, x2 (ix3 b r (hi p)) := by
  unfold count
  rw [sum_halves, zero_add]

/-- The weighted sum of a feature, accumulated from zero one half at a time. -/
theorem feat_halves (x0 : Net) (x2 : Mask) (b : Fin 8) (r : Fin 32) (d : Fin 512) :
    feat x0 x2 b r d
      = ((0 : EReal) + ∑ p : Fin 4096, x2 (ix3 b r (lo p)) * x0 (ix2 (row b (lo p)) d))
        + ∑ p : Fin 4096, x2 (ix3 b r (hi p)) * x0 (ix2 (row b (hi p)) d) := by
  unfold feat
  rw [sum_halves, zero_add]

end Cert.SegMean

end
-- ==== Proof.IdealValue.lean ====
/-
  The kernel's two result arrays, at the ideal instance, are the specification's.

  A grid point `t` is half `t % 2` of object `t / 2`.  Its feature block is rows `4096·t … 4096·t + 4095` of the
  table — the first or the second half of the object's points — and its weight block is the same half of the
  object's weights.  An odd point's write-back therefore holds, at mask `r` and feature `d`,
      ((0 + Σ first half) + Σ second half)  /  (((0 + Σ first half of the weights) + Σ second half) + ε),
  which is the specification's mean (an object's 8192 points are its two halves), and likewise the total weight.
  Only the odd points write back, one per object, and their blocks tile the result arrays: so the arrays end as
  the specification's `mean3` and `count3` of the argument arrays.
-/
import proofs.«168626_j28896539967630_2_alg».proof.Proof.IdealPieces
import proofs.«168626_j28896539967630_2_alg».proof.Proof.IdealPayloads
import proofs.«168626_j28896539967630_2_alg».proof.Proof.SpecHalves
import Idealize.ShloMosaic.Lib.Pipeline.Value

set_option maxRecDepth 16384

noncomputable section

open scoped BigOperators

namespace Cert.KernelIdeal.SegValue

open Cert.KernelIdeal Cert.KernelIdeal.Gen Cert.KernelIdeal.Seg Cert.SegMean
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The feature table and the weights as the region finds them. -/
abbrev X0 (c : Dev nD) : Net := V m c main_arg0
abbrev X2 (c : Dev nD) : Mask := V m c main_arg2

/-! ## The printed index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val / 2 ∧ win0_1.index t (1 : Fin 3) = 0 ∧ win0_1.index t (2 : Fin 3) = t.val % 2 :=
  (by decide +kernel : ∀ t : Fin grid0.N, _)
theorem idx2 : ∀ t : Fin cfg0.N, win0_2.index t (0 : Fin 3) = t.val / 2 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 2 ∧ win0_3.index t (1 : Fin 3) = 0 ∧ win0_3.index t (2 : Fin 3) = 0 :=
  (by decide +kernel : ∀ t : Fin grid0.N, _)

/-! ## The blocks -/

/-- The feature block of an even point is the first half of its object's rows, -/
theorem blk0_lo (c : Dev nD) (t : Fin cfg0.N) (b : Fin 8) (hb : t.val = 2 * b.val) (p : Fin 4096) (d : Fin 512) :
    (iblk m c 0 t : Vec Ideal S4096x512 .f32) (ix2 p d) = X0 m c (ix2 (row b (lo p)) d) := by
  obtain ⟨i0, i1⟩ := idx0 t
  unfold iblk
  rw [View.read_apply]
  show V m c main_arg0 _ = V m c main_arg0 _
  congr 1
  funext a
  apply Fin.ext
  match a with
  | ⟨0, _⟩ => show win0_0.index t 0 * 4096 + 1 * p.val = b.val * 8192 + p.val; rw [i0]; omega
  | ⟨1, _⟩ => show win0_0.index t 1 * 512 + 1 * d.val = d.val; rw [i1]; omega
/-- and of an odd point the second half. -/
theorem blk0_hi (c : Dev nD) (t : Fin cfg0.N) (b : Fin 8) (hb : t.val = 2 * b.val + 1) (p : Fin 4096) (d : Fin 512) :
    (iblk m c 0 t : Vec Ideal S4096x512 .f32) (ix2 p d) = X0 m c (ix2 (row b (hi p)) d) := by
  obtain ⟨i0, i1⟩ := idx0 t
  unfold iblk
  rw [View.read_apply]
  show V m c main_arg0 _ = V m c main_arg0 _
  congr 1
  funext a
  apply Fin.ext
  match a with
  | ⟨0, _⟩ => show win0_0.index t 0 * 4096 + 1 * p.val = b.val * 8192 + (4096 + p.val); rw [i0]; omega
  | ⟨1, _⟩ => show win0_0.index t 1 * 512 + 1 * d.val = d.val; rw [i1]; omega
/-- The weight block of an even point is the first half of its object's weights, -/
theorem blk1_lo (c : Dev nD) (t : Fin cfg0.N) (b : Fin 8) (hb : t.val = 2 * b.val) (r : Fin 32) (p : Fin 4096) :
    (iblk m c 1 t : Vec Ideal S1x32x4096 .f32) (ix3 (0 : Fin 1) r p) = X2 m c (ix3 b r (lo p)) := by
  obtain ⟨i0, i1, i2⟩ := idx1 t
  unfold iblk
  rw [View.read_apply]
  show V m c main_arg2 _ = V m c main_arg2 _
  congr 1
  funext a
  apply Fin.ext
  match a with
  | ⟨0, _⟩ => show win0_1.index t 0 * 1 + 1 * 0 = b.val; rw [i0]; omega
  | ⟨1, _⟩ => show win0_1.index t 1 * 32 + 1 * r.val = r.val; rw [i1]; omega
  | ⟨2, _⟩ => show win0_1.index t 2 * 4096 + 1 * p.val = p.val; rw [i2]; omega
/-- and of an odd point the second half. -/
theorem blk1_hi (c : Dev nD) (t : Fin cfg0.N) (b : Fin 8) (hb : t.val = 2 * b.val + 1) (r : Fin 32) (p : Fin 4096) :
    (iblk m c 1 t : Vec Ideal S1x32x4096 .f32) (ix3 (0 : Fin 1) r p) = X2 m c (ix3 b r (hi p)) := by
  obtain ⟨i0, i1, i2⟩ := idx1 t
  unfold iblk
  rw [View.read_apply]
  show V m c main_arg2 _ = V m c main_arg2 _
  congr 1
  funext a
  apply Fin.ext
  match a with
  | ⟨0, _⟩ => show win0_1.index t 0 * 1 + 1 * 0 = b.val; rw [i0]; omega
  | ⟨1, _⟩ => show win0_1.index t 1 * 32 + 1 * r.val = r.val; rw [i1]; omega
  | ⟨2, _⟩ => show win0_1.index t 2 * 4096 + 1 * p.val = 4096 + p.val; rw [i2]; omega

/-! ## The two-step accumulation over plain blocks -/

/-- The means' payload over two steps from cleared accumulators, at an entry. -/
theorem mean_of_blocks (A0 A0' : Vec Ideal S4096x512 .f32) (A1 A1' : Vec Ideal S1x32x4096 .f32) (r : Fin 32) (d : Fin 512) :
    k0_pay6 (F := Ideal) (k0_pay5 A1 (k0_pay5 A1' (k0_pay2 (F := Ideal)))) (k0_pay4 A0 A1 (k0_pay4 A0' A1' (k0_pay1 (F := Ideal)))) (ix3 (0 : Fin 1) r d)
      = Ideal.div (((0 : EReal) + ∑ p : Fin 4096, A1' (ix3 (0 : Fin 1) r p) * A0' (ix2 p d)) + ∑ p : Fin 4096, A1 (ix3 (0 : Fin 1) r p) * A0 (ix2 p d))
          ((((0 : EReal) + ∑ p : Fin 4096, A1' (ix3 (0 : Fin 1) r p)) + ∑ p : Fin 4096, A1 (ix3 (0 : Fin 1) r p)) + Ideal.ofBits .f32 0x2B8CBCCC#32) := by
  rw [pay6_apply, pay4_apply, pay4_apply, pay1_apply, pay5_apply, pay5_apply, pay2_apply]

/-- The total weights' payload over two steps from a cleared accumulator, at an entry. -/
theorem count_of_blocks (A1 A1' : Vec Ideal S1x32x4096 .f32) (r : Fin 32) :
    k0_pay7 (F := Ideal) (k0_pay5 A1 (k0_pay5 A1' (k0_pay2 (F := Ideal)))) (ix3 (0 : Fin 1) r (0 : Fin 1))
      = ((0 : EReal) + ∑ p : Fin 4096, A1' (ix3 (0 : Fin 1) r p)) + ∑ p : Fin 4096, A1 (ix3 (0 : Fin 1) r p) := by
  rw [pay7_apply, pay5_apply, pay5_apply, pay2_apply]

/-! ## What an odd point leaves in the two output windows -/

/-- The point before an odd point, which is even. -/
def prev (t : Fin cfg0.N) : Fin cfg0.N := ⟨t.val - 1, Nat.lt_of_le_of_lt (Nat.sub_le _ _) t.isLt⟩

theorem out2_eq (c : Dev nD) (t : Fin cfg0.N) (h1 : t.val % 2 = 1) :
    (outsAt0 m c t.val t.isLt).1
      = k0_pay6 (k0_pay5 (iblk m c 1 t) (k0_pay5 (iblk m c 1 (prev t)) (k0_pay2 (F := Ideal))))
          (k0_pay4 (iblk m c 0 t) (iblk m c 1 t) (k0_pay4 (iblk m c 0 (prev t)) (iblk m c 1 (prev t)) (k0_pay1 (F := Ideal)))) := by
  have h0 : ¬t.val % 2 = 0 := by omega
  have hp : (prev t).val % 2 = 0 := by show (t.val - 1) % 2 = 0; omega
  rw [outsAt0_B m c t h0]
  dsimp only
  rw [oB2]
  rw [show outsAt0 m c (t.val - 1) (Nat.lt_of_le_of_lt (Nat.sub_le _ _) t.isLt) = outsAt0 m c (prev t).val (prev t).isLt from rfl,
    outsAt0_A m c (prev t) hp]
  dsimp only
  rw [sA0, sA1]

theorem out3_eq (c : Dev nD) (t : Fin cfg0.N) (h1 : t.val % 2 = 1) :
    (outsAt0 m c t.val t.isLt).2.1
      = k0_pay7 (k0_pay5 (iblk m c 1 t) (k0_pay5 (iblk m c 1 (prev t)) (k0_pay2 (F := Ideal)))) := by
  have h0 : ¬t.val % 2 = 0 := by omega
  have hp : (prev t).val % 2 = 0 := by show (t.val - 1) % 2 = 0; omega
  rw [outsAt0_B m c t h0]
  dsimp only
  rw [oB3]
  rw [show outsAt0 m c (t.val - 1) (Nat.lt_of_le_of_lt (Nat.sub_le _ _) t.isLt) = outsAt0 m c (prev t).val (prev t).isLt from rfl,
    outsAt0_A m c (prev t) hp]
  dsimp only
  rw [sA1]

/-- At the odd point of object `b`, the means' window holds the specification's means of that object. -/
theorem out2_entry (c : Dev nD) (t : Fin cfg0.N) (b : Fin 8) (hb : t.val = 2 * b.val + 1) (r : Fin 32) (d : Fin 512) :
    ((outsAt0 m c t.val t.isLt).1 : Vec Ideal S1x32x512 .f32) (ix3 (0 : Fin 1) r d) = mean (X0 m c) (X2 m c) b r d := by
  have hp : (prev t).val = 2 * b.val := by show t.val - 1 = 2 * b.val; omega
  rw [out2_eq m c t (by omega)]
  refine (mean_of_blocks _ _ _ _ r d).trans ?_
  simp only [blk1_lo m c (prev t) b hp, blk0_lo m c (prev t) b hp, blk1_hi m c t b hb, blk0_hi m c t b hb]
  unfold mean eps
  rw [feat_halves, count_halves]

/-- And the total weights' window holds the object's total weights. -/
theorem out3_entry (c : Dev nD) (t : Fin cfg0.N) (b : Fin 8) (hb : t.val = 2 * b.val + 1) (r : Fin 32) :
    ((outsAt0 m c t.val t.isLt).2.1 : Vec Ideal S1x32x1 .f32) (ix3 (0 : Fin 1) r (0 : Fin 1)) = count (X2 m c) b r := by
  have hp : (prev t).val = 2 * b.val := by show t.val - 1 = 2 * b.val; omega
  rw [out3_eq m c t (by omega)]
  refine (count_of_blocks _ _ r).trans ?_
  simp only [blk1_lo m c (prev t) b hp, blk1_hi m c t b hb]
  rw [count_halves]

/-! ## The write-backs and the arrays -/

/-- The object an odd point belongs to. -/
def objOf (t : Fin cfg0.N) : Fin 8 := ⟨t.val / 2, by have : t.val < 16 := lt_of_lt_of_eq t.isLt N_0; omega⟩

/-- What a writing point writes back into the means' array is its block of the specification's means. -/
theorem flushed2_eq (c : Dev nD) (t : Fin cfg0.N) (hf : (cfg0.win 2).flush t = true) :
    (dats m 0 c).flushed 2 t = ((cfg0.win 2).blk t).view.read (Elt Ideal) (mean3 (X0 m c) (X2 m c)) := by
  have h1 : t.val % 2 = 1 := (flush0_2 t).mp hf
  have hb : t.val = 2 * (objOf t).val + 1 := by show t.val = 2 * (t.val / 2) + 1; omega
  obtain ⟨j0, j1, j2⟩ := idx2 t
  show (cfg0.win 2).cut (grid0.coords t) ((dats m 0 c).after 2 t) = _
  rw [after0_2]
  funext y
  have hy0 : (y 0).val = 0 := by have h : (y 0).val < 1 := (y 0).isLt; omega
  obtain ⟨r, d, rfl⟩ : ∃ (r : Fin 32) (d : Fin 512), y = ix3 (0 : Fin 1) r d :=
    ⟨y 1, y 2, by rw [eq_ix3 y]; congr 1; exact Fin.ext hy0⟩
  show ((outsAt0 m c t.val t.isLt).1 : Vec Ideal S1x32x512 .f32) (ix3 (0 : Fin 1) r d)
    = mean3 (X0 m c) (X2 m c) (((cfg0.win 2).blk t).view.emb (ix3 (0 : Fin 1) r d))
  rw [out2_entry m c t (objOf t) hb r d]
  unfold mean3
  congr 1 <;> apply Fin.ext
  · show t.val / 2 = win0_2.index t 0 * 1 + 1 * 0; rw [j0]; omega
  · show r.val = win0_2.index t 1 * 32 + 1 * r.val; rw [j1]; omega
  · show d.val = win0_2.index t 2 * 512 + 1 * d.val; rw [j2]; omega

theorem flushed3_eq (c : Dev nD) (t : Fin cfg0.N) (hf : (cfg0.win 3).flush t = true) :
    (dats m 0 c).flushed 3 t = ((cfg0.win 3).blk t).view.read (Elt Ideal) (count3 (X2 m c)) := by
  have h1 : t.val % 2 = 1 := (flush0_3 t).mp hf
  have hb : t.val = 2 * (objOf t).val + 1 := by show t.val = 2 * (t.val / 2) + 1; omega
  obtain ⟨j0, j1, j2⟩ := idx3 t
  show (cfg0.win 3).cut (grid0.coords t) ((dats m 0 c).after 3 t) = _
  rw [after0_3]
  funext y
  have hy0 : (y 0).val = 0 := by have h : (y 0).val < 1 := (y 0).isLt; omega
  have hy2 : (y 2).val = 0 := by have h : (y 2).val < 1 := (y 2).isLt; omega
  obtain ⟨r, rfl⟩ : ∃ (r : Fin 32), y = ix3 (0 : Fin 1) r (0 : Fin 1) :=
    ⟨y 1, by rw [eq_ix3 y]; congr 1 <;> first | exact Fin.ext hy0 | exact Fin.ext hy2⟩
  show ((outsAt0 m c t.val t.isLt).2.1 : Vec Ideal S1x32x1 .f32) (ix3 (0 : Fin 1) r (0 : Fin 1))
    = count3 (X2 m c) (((cfg0.win 3).blk t).view.emb (ix3 (0 : Fin 1) r (0 : Fin 1)))
  rw [out3_entry m c t (objOf t) hb r]
  unfold count3
  congr 1 <;> apply Fin.ext
  · show t.val / 2 = win0_3.index t 0 * 1 + 1 * 0; rw [j0]; omega
  · show r.val = win0_3.index t 1 * 32 + 1 * r.val; rw [j1]; omega

/-- The odd point of object `b`. -/
def oddOf (b : Fin 8) : Fin cfg0.N := ⟨2 * b.val + 1, by rw [show cfg0.N = 16 from N_0]; have := b.isLt; omega⟩

/-- Every entry of the means' array is in the block of its object's odd point. -/
theorem cover2 (i : S8x32x512.Idx) : ∃ t : Fin cfg0.N, (cfg0.win 2).flush t = true ∧ i ∈ ((cfg0.win 2).blk t).view.set := by
  have h0 : (i 0).val < 8 := (i 0).isLt
  have h1 : (i 1).val < 32 := (i 1).isLt
  have h2 : (i 2).val < 512 := (i 2).isLt
  refine ⟨oddOf ⟨(i 0).val, h0⟩, (flush0_2 _).mpr (by show (2 * (i 0).val + 1) % 2 = 1; omega), ?_⟩
  obtain ⟨j0, j1, j2⟩ := idx2 (oddOf ⟨(i 0).val, h0⟩)
  have e0 : win0_2.index (oddOf ⟨(i 0).val, h0⟩) 0 = (i 0).val := by rw [j0]; show (2 * (i 0).val + 1) / 2 = (i 0).val; omega
  show i ∈ ((View.whole main_v0_0).slice (win0_2.rect (oddOf ⟨(i 0).val, h0⟩))).set
  rw [View.set_slice_whole, Rect.mem_set_unit]
  intro a
  match a with
  | ⟨0, _⟩ => show win0_2.index (oddOf ⟨(i 0).val, h0⟩) 0 * 1 ≤ (i 0).val ∧ (i 0).val < win0_2.index (oddOf ⟨(i 0).val, h0⟩) 0 * 1 + 1; rw [e0]; omega
  | ⟨1, _⟩ => show win0_2.index (oddOf ⟨(i 0).val, h0⟩) 1 * 32 ≤ (i 1).val ∧ (i 1).val < win0_2.index (oddOf ⟨(i 0).val, h0⟩) 1 * 32 + 32; rw [j1]; omega
  | ⟨2, _⟩ => show win0_2.index (oddOf ⟨(i 0).val, h0⟩) 2 * 512 ≤ (i 2).val ∧ (i 2).val < win0_2.index (oddOf ⟨(i 0).val, h0⟩) 2 * 512 + 512; rw [j2]; omega

theorem cover3 (i : S8x32x1.Idx) : ∃ t : Fin cfg0.N, (cfg0.win 3).flush t = true ∧ i ∈ ((cfg0.win 3).blk t).view.set := by
  have h0 : (i 0).val < 8 := (i 0).isLt
  have h1 : (i 1).val < 32 := (i 1).isLt
  have h2 : (i 2).val < 1 := (i 2).isLt
  refine ⟨oddOf ⟨(i 0).val, h0⟩, (flush0_3 _).mpr (by show (2 * (i 0).val + 1) % 2 = 1; omega), ?_⟩
  obtain ⟨j0, j1, j2⟩ := idx3 (oddOf ⟨(i 0).val, h0⟩)
  have e0 : win0_3.index (oddOf ⟨(i 0).val, h0⟩) 0 = (i 0).val := by rw [j0]; show (2 * (i 0).val + 1) / 2 = (i 0).val; omega
  show i ∈ ((View.whole main_v0_1).slice (win0_3.rect (oddOf ⟨(i 0).val, h0⟩))).set
  rw [View.set_slice_whole, Rect.mem_set_unit]
  intro a
  match a with
  | ⟨0, _⟩ => show win0_3.index (oddOf ⟨(i 0).val, h0⟩) 0 * 1 ≤ (i 0).val ∧ (i 0).val < win0_3.index (oddOf ⟨(i 0).val, h0⟩) 0 * 1 + 1; rw [e0]; omega
  | ⟨1, _⟩ => show win0_3.index (oddOf ⟨(i 0).val, h0⟩) 1 * 32 ≤ (i 1).val ∧ (i 1).val < win0_3.index (oddOf ⟨(i 0).val, h0⟩) 1 * 32 + 32; rw [j1]; omega
  | ⟨2, _⟩ => show win0_3.index (oddOf ⟨(i 0).val, h0⟩) 2 * 1 ≤ (i 2).val ∧ (i 2).val < win0_3.index (oddOf ⟨(i 0).val, h0⟩) 2 * 1 + 1; rw [j2]; omega

/-- The means' array after the region. -/
theorem final2 (c : Dev nD) : (dats m 0 c).arrAt 2 cfg0.N = mean3 (X0 m c) (X2 m c) :=
  (dats m 0 c).arrAt_eq_of_cover 2 (mean3 (X0 m c) (X2 m c)) (flushed2_eq m c) cover2

/-- The total weights' array after the region. -/
theorem final3 (c : Dev nD) : (dats m 0 c).arrAt 3 cfg0.N = count3 (X2 m c) :=
  (dats m 0 c).arrAt_eq_of_cover 3 (count3 (X2 m c)) (flushed3_eq m c) cover3

end Cert.KernelIdeal.SegValue

end
-- ==== Proof.KernelLayout.lean ====
/-
  The two reshapes that bring the object × mask layout to the 256 rows of the specification.

  Row `r` of the 256 is mask `r % 32` of object `r / 32`: a reshape keeps the row-major position, and
  `((r / 32) * 32 + r % 32) * 512 + d = r * 512 + d`.  The side conditions of the reshapes are taken as
  hypotheses, so the equations hold for whichever proofs of them a program carries.
-/
import proofs.«168626_j28896539967630_2_alg».proof.Proof.Spec
import Idealize.ShloMosaic.Lib.ValueIdx
import Idealize.ShloMosaic.Lib.Pipeline.Value

noncomputable section

namespace Cert.SegMean

open Idealize.ShloMosaic Idealize.ShloMosaic.ValueIdx

/-- The means laid out object, mask, feature and reshaped to 256 rows of features are the means over the 256
    masks: entry `(r, d)` of the reshape sits at row-major position `r * 512 + d`, which is the position of
    `(r / 32, r % 32, d)`. -/
theorem mean3_rows (x0 : Net) (x2 : Mask) (h : (⟨3, ![8, 32, 512]⟩ : Shape).ShapeCasts ⟨2, ![256, 512]⟩) :
    shapeCast (⟨2, ![256, 512]⟩ : Shape) (mean3 x0 x2) h = avg256 x0 x2 := by
  funext i
  obtain ⟨r, d, rfl⟩ : ∃ (r : Fin 256) (d : Fin 512), i = ix2 r d := ⟨i 0, i 1, eq_ix2 i⟩
  refine (shapeCast_apply (mean3 x0 x2) h (ix2 r d) (ix3 (obj r) (msk r) d) ?_).trans rfl
  rewrite [Shape.rowMajor_val_three, Shape.rowMajor_val_two]
  have hr := r.isLt
  show (r.val / 32 * 32 + r.val % 32) * 512 + d.val = r.val * 512 + d.val
  omega

/-- The total weights laid out object, mask, one column, reshaped to a column of 256 rows and then to a vector
    of 256, are the total weights over the 256 masks: entry `r` of the vector is row `r` of the column, at
    row-major position `r`, which is the position of `(r / 32, r % 32, 0)`. -/
theorem count3_flat (x2 : Mask) (h1 : (⟨3, ![8, 32, 1]⟩ : Shape).ShapeCasts ⟨2, ![256, 1]⟩)
    (h2 : (⟨2, ![256, 1]⟩ : Shape).ShapeCasts ⟨1, ![256]⟩) :
    shapeCast (⟨1, ![256]⟩ : Shape) (shapeCast (⟨2, ![256, 1]⟩ : Shape) (count3 x2) h1) h2 = cnt256 x2 := by
  funext i
  obtain ⟨r, rfl⟩ : ∃ r : Fin 256, i = ix1 r := ⟨i 0, eq_ix1 i⟩
  refine (shapeCast_apply _ h2 (ix1 r) (ix2 r (0 : Fin 1)) ?_).trans ?_
  · rewrite [Shape.rowMajor_val_two, Shape.rowMajor_val_one]
    show r.val * 1 + 0 = r.val
    omega
  refine (shapeCast_apply (count3 x2) h1 (ix2 r (0 : Fin 1)) (ix3 (obj r) (msk r) (0 : Fin 1)) ?_).trans rfl
  rewrite [Shape.rowMajor_val_three, Shape.rowMajor_val_two]
  have hr := r.isLt
  show (r.val / 32 * 32 + r.val % 32) * 1 + 0 = r.val * 1 + 0
  omega

end Cert.SegMean

end
-- ==== Proof.IdealTail.lean ====
/-
  The kernel program's host lines after the region, up to the cut.

  After the region the two result arrays hold the specification's means and total weights, and every other
  unscoped buffer its launch contents.  The first stretch of host lines reshapes the two arrays to the 256 masks'
  rows and computes from them the three values all later lines read: the logits (the text embeddings against the
  transposed means, scaled by the exponential of the scalar argument), the index vector 0 … 255, and the validity
  mask (a mask is valid when its total weight is not zero).  Here they are read as pure terms of the arguments
  over the specification's arrays.  The rest of the tail is the remaining twelve stretches run from there.
-/
import proofs.«168626_j28896539967630_2_alg».proof.Proof.IdealValue
import proofs.«168626_j28896539967630_2_alg».proof.Proof.KernelLayout
import Idealize.ShloMosaic.Lib.StableHlo.Run

set_option maxRecDepth 16384

noncomputable section

namespace Cert.KernelIdeal.SegValue

open Cert.KernelIdeal Cert.KernelIdeal.Gen Cert.KernelIdeal.Seg Cert.SegMean
open Idealize.ShloMosaic Idealize.ShloMosaic.TcCoe Idealize.SL.Sem Idealize.ShloMosaic.ValueIdx Idealize.ShloMosaic.StableHlo
open Idealize.ShloMosaic.Pipeline (Dat)

section Functions

variable {F : FTy → Type} [FloatOps F]

/-- The logits, as a function of the text embeddings, the logit scale and the 256 masks' means. -/
abbrev logitsOf (a1 : (⟨S256x512, .f32⟩ : BufTy).Contents (Elt F)) (a3 : (⟨S_, .f32⟩ : BufTy).Contents (Elt F)) (z : (⟨S256x512, .f32⟩ : BufTy).Contents (Elt F)) : (⟨S256x256, .f32⟩ : BufTy).Contents (Elt F) :=
  (mulf : (⟨S256x256, .f32⟩ : BufTy).Contents (Elt F) → (⟨S256x256, .f32⟩ : BufTy).Contents (Elt F) → (⟨S256x256, .f32⟩ : BufTy).Contents (Elt F))
    (((fun l r => Host.dotGeneral dot_S256x512_S512x256_S256x256_1_0_0_1_n_n none l r) : (⟨S256x512, .f32⟩ : BufTy).Contents (Elt F) → (⟨S512x256, .f32⟩ : BufTy).Contents (Elt F) → (⟨S256x256, .f32⟩ : BufTy).Contents (Elt F))
      a1 (((transpose S512x256 [1, 0] · transposes_S256x512_S512x256_1_0) : (⟨S256x512, .f32⟩ : BufTy).Contents (Elt F) → (⟨S512x256, .f32⟩ : BufTy).Contents (Elt F)) z))
    ((broadcastInDim S256x256 ![] bcast_S_S256x256 : (⟨S_, .f32⟩ : BufTy).Contents (Elt F) → (⟨S256x256, .f32⟩ : BufTy).Contents (Elt F))
      ((Host.exp : (⟨S_, .f32⟩ : BufTy).Contents (Elt F) → (⟨S_, .f32⟩ : BufTy).Contents (Elt F)) a3))

/-- The validity mask, as a function of the 256 masks' total weights. -/
abbrev validOf (z : (⟨S256, .f32⟩ : BufTy).Contents (Elt F)) : (⟨S256, .i1⟩ : BufTy).Contents (Elt F) :=
  (noti : (⟨S256, .i1⟩ : BufTy).Contents (Elt F) → (⟨S256, .i1⟩ : BufTy).Contents (Elt F))
    ((cmpf .oeq : (⟨S256, .f32⟩ : BufTy).Contents (Elt F) → (⟨S256, .f32⟩ : BufTy).Contents (Elt F) → (⟨S256, .i1⟩ : BufTy).Contents (Elt F)) z
      ((broadcastInDim S256 ![] bcast_S_S256 : (⟨S_, .f32⟩ : BufTy).Contents (Elt F) → (⟨S256, .f32⟩ : BufTy).Contents (Elt F)) (constant S_ .f32 0x00000000#32)))

end Functions

variable (m : (ℓ : Loc nD τ sig) → Buf (Elt Ideal) ℓ) (ρ : Dev nD → PrngReg)

/-- Core `c`'s buffers when the region is left: the pipeline's arrays at what the region made of them, every
    other buffer as launched. -/
abbrev WA (c : Dev nD) : Valuation τ sig (Elt Ideal) :=
  Pipeline.withArrays spec0 c (V0 m c) fun w => (dats m 0 c).arrAt w cfg0.N

theorem WA_means (c : Dev nD) : WA m c (Proc.devRef .tc main_v0_0) = mean3 (X0 m c) (X2 m c) :=
  (Pipeline.withArrays_arr spec0 launch0.win.arr_inj c _ _ 2).trans (final2 m c)
theorem WA_counts (c : Dev nD) : WA m c (Proc.devRef .tc main_v0_1) = count3 (X2 m c) :=
  (Pipeline.withArrays_arr spec0 launch0.win.arr_inj c _ _ 3).trans (final3 m c)
theorem WA_arg1 (c : Dev nD) : WA m c (Proc.devRef .tc main_arg1) = m ((c.tc : Thread nD τ).loc main_arg1) :=
  Pipeline.withArrays_of_ne _ c (V0 m c) _ main_arg1 (by decide)
theorem WA_arg3 (c : Dev nD) : WA m c (Proc.devRef .tc main_arg3) = m ((c.tc : Thread nD τ).loc main_arg3) :=
  Pipeline.withArrays_of_ne _ c (V0 m c) _ main_arg3 (by decide)

/-- The logits after the first stretch. -/
theorem k_logits (c : Dev nD) :
    after hostOps1 (WA m c) (Proc.devRef .tc main_v10)
      = logitsOf (F := Ideal) (m ((c.tc : Thread nD τ).loc main_arg1)) (m ((c.tc : Thread nD τ).loc main_arg3)) (avg256 (X0 m c) (X2 m c)) := by
  after_results
  rw [WA_means, WA_arg1, WA_arg3]
  exact congrArg (logitsOf (F := Ideal) (m ((c.tc : Thread nD τ).loc main_arg1)) (m ((c.tc : Thread nD τ).loc main_arg3))) (mean3_rows (X0 m c) (X2 m c) shapeCasts_S8x32x512_S256x512)

/-- The index vector after the first stretch. -/
theorem k_iota (c : Dev nD) : after hostOps1 (WA m c) (Proc.devRef .tc main_v11) = iotaInDim S256 32 0 := by
  after_results

/-- The validity mask after the first stretch. -/
theorem k_valid (c : Dev nD) :
    after hostOps1 (WA m c) (Proc.devRef .tc main_v12) = validOf (F := Ideal) (cnt256 (X2 m c)) := by
  after_results
  rw [WA_counts]
  exact congrArg (validOf (F := Ideal)) (count3_flat (X2 m c) shapeCasts_S8x32x1_S256x1 shapeCasts_S256x1_S256)

/-- The tail's result is the later stretches' fold over what the first stretch leaves. -/
theorem tail_split (c : Dev nD) (L : List (HloOp τ sig (Elt Ideal)))
    (hL : (tailOps (F := Ideal)).flatten = hostOps1 ++ L) (b : Ref sig .tc) :
    Pipeline.afterTail₀ cfgs (dats m) 0 (V0 m) tailOps c b = after L (after hostOps1 (WA m c)) (Proc.devRef .tc b) := by
  unfold Pipeline.afterTail₀
  show after (tailOps (F := Ideal)).flatten (WA m c) (Proc.devRef .tc b) = _
  rw [hL, StableHlo.after_append]

/-- A frame run's post read at the five arguments: they end as launched. -/
theorem args_of_post (r : PUnit × MemSt nD τ sig (Elt Ideal))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).2 main_arg1 (Pipeline.mem_restRefs_of main_arg1 (by decide) (by decide))).trans ((W_kept m (dats m) c main_arg1 (by simp [kept]) (by decide)).trans (V_main_arg1 m c)),
    ((h c).1 1).trans (((dats m 0 c).arrAt_in 1 rfl _).trans ((A_eq m c 1).trans (V_main_arg2 m c))),
    ((h c).2 main_arg3 (Pipeline.mem_restRefs_of main_arg3 (by decide) (by decide))).trans ((W_kept m (dats m) c main_arg3 (by simp [kept]) (by decide)).trans (V_main_arg3 m c)),
    ((h c).2 main_arg4 (Pipeline.mem_restRefs_of main_arg4 (by decide) (by decide))).trans ((W_kept m (dats m) c main_arg4 (by simp [kept]) (by decide)).trans (V_main_arg4 m c))⟩

/-- The result buffer after @main, from a frame run's post: the later stretches' fold over the cut. -/
theorem result_of_post (r : PUnit × MemSt nD τ sig (Elt Ideal))
    (h : Pipeline.FramePost cfgs (dats m) 0 (Pipeline.afterTail₀ cfgs (dats m) 0 (V0 m) tailOps) r) (c : Dev nD)
    (L : List (HloOp τ sig (Elt Ideal))) (hL : (tailOps (F := Ideal)).flatten = hostOps1 ++ L) :
    r.2.mem ((c.tc : Thread nD τ).loc main_v69) = after L (after hostOps1 (WA m c)) (Proc.devRef .tc main_v69) :=
  ((h c).2 main_v69 (Pipeline.mem_restRefs_of main_v69 (by decide) (by decide))).trans (tail_split m c L hL main_v69)

end Cert.KernelIdeal.SegValue

end
-- ==== Proof.RefValue.lean ====
/-
  The reference's side: its first lines compute the masks' means and total weights of the specification.

  Each operation is read at an index: a reshape keeps the row-major position, the batched product is a sum
  over the object's points, the float sum is its initial value plus the sum over the points, a broadcast
  repeats its operand along the new or unit axes.
-/
import proofs.«168626_j28896539967630_2_alg».proof.Proof.Spec
import proofs.«168626_j28896539967630_2_alg».proof.ReferenceIdeal
import Idealize.ShloMosaic.Lib.ValueIdx
import Idealize.ShloMosaic.Lib.Pipeline.Value
import Idealize.ShloMosaic.PureOps.Ideal.Laws

noncomputable section

namespace Cert.ReferenceIdeal.RefValue

open scoped BigOperators
open Idealize.ShloMosaic Idealize.ShloMosaic.ValueIdx Cert.ReferenceIdeal Cert.SegMean

variable [Facts]
open Facts₀ Facts

/-! ## The layout operations at an index -/

/-- The feature table seen as objects × points × features: entry `(b, p, d)` is feature `d` of table row
    `b * 8192 + p`, the two having the same row-major position. -/
theorem table_apply (x0 : FVec Ideal S65536x512 .f32) (b : Fin 8) (p : Fin 8192) (d : Fin 512) :
    shapeCast S8x8192x512 x0 shapeCasts_S65536x512_S8x8192x512 (ix3 b p d) = x0 (ix2 (row b p) d) :=
  shapeCast_apply x0 shapeCasts_S65536x512_S8x8192x512 (ix3 b p d) (ix2 (row b p) d)
    (by rewrite [Shape.rowMajor_val_two, Shape.rowMajor_val_three]
        show (b.val * 8192 + p.val) * 512 + d.val = (b.val * 8192 + p.val) * 512 + d.val
        rfl)

/-- Objects × masks × features laid out as 256 rows of features: row `r` is mask `r % 32` of object `r / 32`. -/
theorem rows_apply (y : FVec Ideal S8x32x512 .f32) (r : Fin 256) (d : Fin 512) :
    shapeCast S256x512 y shapeCasts_S8x32x512_S256x512 (ix2 r d) = y (ix3 (obj r) (msk r) d) :=
  shapeCast_apply y shapeCasts_S8x32x512_S256x512 (ix2 r d) (ix3 (obj r) (msk r) d)
    (by rewrite [Shape.rowMajor_val_three, Shape.rowMajor_val_two]
        have hr := r.isLt
        show (r.val / 32 * 32 + r.val % 32) * 512 + d.val = r.val * 512 + d.val
        omega)

/-- Objects × masks laid out as a column of 256 rows: row `r` is mask `r % 32` of object `r / 32`. -/
theorem col_apply (y : FVec Ideal S8x32 .f32) (r : Fin 256) (z : Fin 1) :
    shapeCast S256x1 y shapeCasts_S8x32_S256x1 (ix2 r z) = y (ix2 (obj r) (msk r)) :=
  shapeCast_apply y shapeCasts_S8x32_S256x1 (ix2 r z) (ix2 (obj r) (msk r))
    (by rewrite [Shape.rowMajor_val_two, Shape.rowMajor_val_two]
        have hr := r.isLt
        have hz := z.isLt
        show r.val / 32 * 32 + r.val % 32 = r.val * 1 + z.val
        omega)

/-- A column of 256 rows read as a vector of 256: entry `r` is row `r`. -/
theorem flat_apply (y : FVec Ideal S256x1 .f32) (r : Fin 256) :
    shapeCast S256 y shapeCasts_S256x1_S256 (ix1 r) = y (ix2 r (0 : Fin 1)) :=
  shapeCast_apply y shapeCasts_S256x1_S256 (ix1 r) (ix2 r (0 : Fin 1))
    (by rewrite [Shape.rowMajor_val_two, Shape.rowMajor_val_one]
        show r.val * 1 + 0 = r.val
        omega)

/-- A scalar broadcast to a column of 256 rows is the scalar everywhere. -/
theorem splat_apply (c : FVec Ideal S_ .f32) (i : S256x1.Idx) :
    broadcastInDim S256x1 ![] bcast_S_S256x1 c i = c ix0 :=
  broadcastInDim_apply _ bcast_S_S256x1 c i ix0 (fun a => a.elim0)

/-- A column of 256 rows broadcast along 512 features: entry `(r, d)` is row `r`. -/
theorem wide_apply (y : FVec Ideal S256x1 .f32) (r : Fin 256) (d : Fin 512) :
    broadcastInDim S256x512 ![0, 1] bcast_S256x1_S256x512_0_1 y (ix2 r d) = y (ix2 r (0 : Fin 1)) :=
  broadcastInDim_apply _ bcast_S256x1_S256x512_0_1 y (ix2 r d) (ix2 r (0 : Fin 1)) (fun a => match a with
    | ⟨0, _⟩ => by show r.val = if (256 : Nat) = 1 then 0 else r.val; rw [if_neg (by decide)]
    | ⟨1, _⟩ => by show 0 = if (1 : Nat) = 1 then 0 else d.val; rw [if_pos rfl])

/-! ## The sum over an object's points -/

/-- The float sum over the points' axis at object `b`, mask `m`: the initial value plus the sum of the
    mask's weights over the object's points. -/
theorem sum_apply (x2 : FVec Ideal S8x32x8192 .f32) (c : FVec Ideal S_ .f32) (b : Fin 8) (m : Fin 32) :
    Host.reduceAdd (F := Ideal) x2 c reducesTo_S8x32x8192_S8x32_d2 h_S_ (ix2 b m)
      = c (Shape.Idx.first h_S_) + ∑ p : Fin 8192, x2 (ix3 b m p) := by
  simp only [Host.reduceAdd, Ideal.hostReduceAdd_def]
  rw [Ideal.hostReduceAdd_single reducesTo_S8x32x8192_S8x32_d2 (by decide)]
  refine congrArg (_ + ·) (Finset.sum_congr rfl fun k _ => ?_)
  exact congrArg x2 (funext fun a => Fin.ext (by match a with | ⟨0, _⟩ => rfl | ⟨1, _⟩ => rfl | ⟨2, _⟩ => rfl))

/-- Started from the zero word, the float sum is the specification's total weight of the mask. -/
theorem weight_apply (x2 : FVec Ideal S8x32x8192 .f32) (b : Fin 8) (m : Fin 32) :
    Host.reduceAdd (F := Ideal) x2 (constant (F := Ideal) S_ .f32 0x00000000#32) reducesTo_S8x32x8192_S8x32_d2 h_S_ (ix2 b m)
      = count x2 b m := by
  rw [sum_apply]
  show Ideal.ofBits .f32 0x00000000#32 + _ = _
  rw [Ideal.ofBits_zero_f32, zero_add]
  rfl

/-- The broadcast literal is the specification's ε at every row. -/
theorem eps_apply (i : S256x1.Idx) :
    broadcastInDim S256x1 ![] bcast_S_S256x1 (constant (F := Ideal) S_ .f32 0x2B8CBCCC#32) i = eps :=
  (splat_apply _ i).trans rfl

/-! ## The batched product

The product contracts the points' axis with the object as batch axis: its left index at output `(b, m, d)`
and contraction coordinate `k` is `(b, m, k)`, its right index `(b, k, d)`. -/

/-- The left index's object coordinate is the output's: the object is the batch axis. -/
theorem dot_lhs_0 (i : S8x32x512.Idx) (q : dot_S8x32x8192_S8x8192x512_S8x32x512_2_1_1_2_0_0.contr.Idx) :
    (dot_S8x32x8192_S8x8192x512_S8x32x512_2_1_1_2_0_0.lhsIdx i q 0).val = (i 0).val := by
  unfold DotDims.lhsIdx
  rw [dif_pos (show (0 : Fin S8x32x8192.rank) ∈ dot_S8x32x8192_S8x8192x512_S8x32x512_2_1_1_2_0_0.lhsBatch from List.mem_singleton.mpr rfl)]
  rfl
/-- The left index's mask coordinate is the output's: the mask is the left operand's free axis. -/
theorem dot_lhs_1 (i : S8x32x512.Idx) (q : dot_S8x32x8192_S8x8192x512_S8x32x512_2_1_1_2_0_0.contr.Idx) :
    (dot_S8x32x8192_S8x8192x512_S8x32x512_2_1_1_2_0_0.lhsIdx i q 1).val = (i 1).val := by
  unfold DotDims.lhsIdx
  rw [dif_neg (show ¬(1 : Fin S8x32x8192.rank) ∈ dot_S8x32x8192_S8x8192x512_S8x32x512_2_1_1_2_0_0.lhsBatch by show ¬(1 : Fin 3) ∈ ([0] : List (Fin 3)); decide), dif_pos (show (1 : Fin S8x32x8192.rank) ∈ dot_S8x32x8192_S8x8192x512_S8x32x512_2_1_1_2_0_0.lhsNonContracting from List.mem_singleton.mpr rfl)]
  rfl
/-- The left index's point coordinate is the contraction coordinate. -/
theorem dot_lhs_2 (i : S8x32x512.Idx) (q : dot_S8x32x8192_S8x8192x512_S8x32x512_2_1_1_2_0_0.contr.Idx) :
    (dot_S8x32x8192_S8x8192x512_S8x32x512_2_1_1_2_0_0.lhsIdx i q 2).val = (q ⟨0, (show 0 < dot_S8x32x8192_S8x8192x512_S8x32x512_2_1_1_2_0_0.contr.rank from Nat.one_pos)⟩).val :=
  dot_S8x32x8192_S8x8192x512_S8x32x512_2_1_1_2_0_0.lhsIdx_val_of_single rfl i q
/-- The right index's object coordinate is the output's: the object is the batch axis. -/
theorem dot_rhs_0 (i : S8x32x512.Idx) (q : dot_S8x32x8192_S8x8192x512_S8x32x512_2_1_1_2_0_0.contr.Idx) :
    (dot_S8x32x8192_S8x8192x512_S8x32x512_2_1_1_2_0_0.rhsIdx i q 0).val = (i 0).val := by
  unfold DotDims.rhsIdx
  rw [dif_pos (show (0 : Fin S8x8192x512.rank) ∈ dot_S8x32x8192_S8x8192x512_S8x32x512_2_1_1_2_0_0.rhsBatch from List.mem_singleton.mpr rfl)]
  rfl
/-- The right index's point coordinate is the contraction coordinate. -/
theorem dot_rhs_1 (i : S8x32x512.Idx) (q : dot_S8x32x8192_S8x8192x512_S8x32x512_2_1_1_2_0_0.contr.Idx) :
    (dot_S8x32x8192_S8x8192x512_S8x32x512_2_1_1_2_0_0.rhsIdx i q 1).val = (q ⟨0, (show 0 < dot_S8x32x8192_S8x8192x512_S8x32x512_2_1_1_2_0_0.contr.rank from Nat.one_pos)⟩).val :=
  dot_S8x32x8192_S8x8192x512_S8x32x512_2_1_1_2_0_0.rhsIdx_val_of_single rfl i q
/-- The right index's feature coordinate is the output's: the feature is the right operand's free axis. -/
theorem dot_rhs_2 (i : S8x32x512.Idx) (q : dot_S8x32x8192_S8x8192x512_S8x32x512_2_1_1_2_0_0.contr.Idx) :
    (dot_S8x32x8192_S8x8192x512_S8x32x512_2_1_1_2_0_0.rhsIdx i q 2).val = (i 2).val := by
  unfold DotDims.rhsIdx
  rw [dif_neg (show ¬(2 : Fin S8x8192x512.rank) ∈ dot_S8x32x8192_S8x8192x512_S8x32x512_2_1_1_2_0_0.rhsBatch by show ¬(2 : Fin 3) ∈ ([0] : List (Fin 3)); decide), dif_pos (show (2 : Fin S8x8192x512.rank) ∈ dot_S8x32x8192_S8x8192x512_S8x32x512_2_1_1_2_0_0.rhsNonContracting from List.mem_singleton.mpr rfl)]
  rfl

/-- The batched product at object `b`, mask `m`, feature `d`: the sum over the object's points of the
    mask's weight of the point times the right operand's feature `d` of the point. -/
theorem dot_apply (x2 : FVec Ideal S8x32x8192 .f32) (y : FVec Ideal S8x8192x512 .f32) (b : Fin 8) (m : Fin 32) (d : Fin 512) :
    Host.dotGeneral (F := Ideal) dot_S8x32x8192_S8x8192x512_S8x32x512_2_1_1_2_0_0 none x2 y (ix3 b m d)
      = ∑ p : Fin 8192, x2 (ix3 b m p) * y (ix3 b p d) := by
  simp only [Host.dotGeneral]
  rw [Ideal.dotGeneral_apply, ← Equiv.sum_comp (contrEquiv1 dot_S8x32x8192_S8x8192x512_S8x32x512_2_1_1_2_0_0 8192 rfl rfl).symm]
  refine Finset.sum_congr rfl fun k _ => ?_
  have hk := contrEquiv1_symm_val dot_S8x32x8192_S8x8192x512_S8x32x512_2_1_1_2_0_0 8192 rfl rfl k
  have el : dot_S8x32x8192_S8x8192x512_S8x32x512_2_1_1_2_0_0.lhsIdx (ix3 b m d) ((contrEquiv1 dot_S8x32x8192_S8x8192x512_S8x32x512_2_1_1_2_0_0 8192 rfl rfl).symm k) = ix3 b m k := funext fun a => Fin.ext (by
    match a with
    | ⟨0, _⟩ => exact dot_lhs_0 _ _
    | ⟨1, _⟩ => exact dot_lhs_1 _ _
    | ⟨2, _⟩ => exact (dot_lhs_2 _ _).trans hk)
  have er : dot_S8x32x8192_S8x8192x512_S8x32x512_2_1_1_2_0_0.rhsIdx (ix3 b m d) ((contrEquiv1 dot_S8x32x8192_S8x8192x512_S8x32x512_2_1_1_2_0_0 8192 rfl rfl).symm k) = ix3 b k d := funext fun a => Fin.ext (by
    match a with
    | ⟨0, _⟩ => exact dot_rhs_0 _ _
    | ⟨1, _⟩ => exact (dot_rhs_1 _ _).trans hk
    | ⟨2, _⟩ => exact dot_rhs_2 _ _)
  rw [el, er]

/-- The product of the weights with the reshaped feature table is the specification's weighted sum of a feature. -/
theorem feat_apply (x0 : FVec Ideal S65536x512 .f32) (x2 : FVec Ideal S8x32x8192 .f32) (b : Fin 8) (m : Fin 32) (d : Fin 512) :
    Host.dotGeneral (F := Ideal) dot_S8x32x8192_S8x8192x512_S8x32x512_2_1_1_2_0_0 none x2
        (shapeCast S8x8192x512 x0 shapeCasts_S65536x512_S8x8192x512) (ix3 b m d)
      = feat x0 x2 b m d := by
  rw [dot_apply]
  simp only [table_apply]
  rfl

/-! ## The two arrays -/

/-- The host's quotient of two arrays, exact arithmetic: entry by entry the quotient of the entries. -/
theorem hostDivf_apply {s : Shape} (a b : FVec Ideal s .f32) (i : s.Idx) :
    Host.divf (F := Ideal) a b i = Ideal.div (a i) (b i) := rfl

/-- The reference's total weights are the specification's: the sum of a mask's weights over its object's points,
    started from zero, at mask `r % 32` of object `r / 32`. -/
theorem ref_cnt (x2 : FVec Ideal S8x32x8192 .f32) :
    shapeCast S256 (shapeCast S256x1 (Host.reduceAdd (F := Ideal) x2 (constant (F := Ideal) S_ .f32 0x00000000#32) reducesTo_S8x32x8192_S8x32_d2 h_S_) shapeCasts_S8x32_S256x1) shapeCasts_S256x1_S256
      = Cert.SegMean.cnt256 x2 := by
  funext i
  obtain ⟨r, rfl⟩ : ∃ r : Fin 256, i = ix1 r := ⟨i 0, eq_ix1 i⟩
  rw [flat_apply, col_apply, weight_apply]
  rfl

/-- The reference's means are the specification's: the weighted sum of a feature over the object's points,
    divided by the mask's total weight plus the literal, at mask `r % 32` of object `r / 32`. -/
theorem ref_avg (x0 : FVec Ideal S65536x512 .f32) (x2 : FVec Ideal S8x32x8192 .f32) :
    Host.divf (F := Ideal)
        (shapeCast S256x512 (Host.dotGeneral (F := Ideal) dot_S8x32x8192_S8x8192x512_S8x32x512_2_1_1_2_0_0 none x2 (shapeCast S8x8192x512 x0 shapeCasts_S65536x512_S8x8192x512)) shapeCasts_S8x32x512_S256x512)
        (broadcastInDim S256x512 ![0, 1] bcast_S256x1_S256x512_0_1
          (addf (shapeCast S256x1 (Host.reduceAdd (F := Ideal) x2 (constant (F := Ideal) S_ .f32 0x00000000#32) reducesTo_S8x32x8192_S8x32_d2 h_S_) shapeCasts_S8x32_S256x1)
            (broadcastInDim S256x1 ![] bcast_S_S256x1 (constant (F := Ideal) S_ .f32 0x2B8CBCCC#32))))
      = Cert.SegMean.avg256 x0 x2 := by
  funext i
  obtain ⟨r, d, rfl⟩ : ∃ (r : Fin 256) (d : Fin 512), i = ix2 r d := ⟨i 0, i 1, eq_ix2 i⟩
  rw [hostDivf_apply, rows_apply, feat_apply, wide_apply, addf_apply, col_apply, weight_apply, eps_apply]
  rfl

end Cert.ReferenceIdeal.RefValue

end
-- ==== Proof.RefRun.lean ====
/- The reference program's @main as a list of its 136 host operations, cut after the three values the
   remaining operations read — the logits, the index vector and the validity mask —, and its run read
   back: every weakly fair execution terminates with each buffer at the fold of the operations' results
   over its launch contents. The five argument buffers are written by no operation and keep their launch
   contents; the three cut values are stated as pure terms of the arguments. The composed term of the
   final result is never built: the remainder is compared elsewhere over abstract buffer contents. -/
import proofs.«168626_j28896539967630_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's first 22 operations, in order: through the logits, the index vector and the validity mask. -/
abbrev opsPre : List (HloOp τ sig (Elt F)) :=
  [ reshape main_arg0 main_v0 rfl shapeCasts_S65536x512_S8x8192x512,
    binary main_arg2 main_v0 main_v1 ((fun l r => Host.dotGeneral dot_S8x32x8192_S8x8192x512_S8x32x512_2_1_1_2_0_0 none l r) : (⟨S8x32x8192, .f32⟩ : BufTy).Contents (Elt F) → (⟨S8x8192x512, .f32⟩ : BufTy).Contents (Elt F) → (⟨S8x32x512, .f32⟩ : BufTy).Contents (Elt F)),
    reshape main_v1 main_v2 rfl shapeCasts_S8x32x512_S256x512,
    nullary main_cst (constant S_ .f32 0x00000000#32),
    binary main_arg2 main_cst main_v3 ((fun x v => Host.reduceAdd x v reducesTo_S8x32x8192_S8x32_d2 h_S_) : (⟨S8x32x8192, .f32⟩ : BufTy).Contents (Elt F) → (⟨S_, .f32⟩ : BufTy).Contents (Elt F) → (⟨S8x32, .f32⟩ : BufTy).Contents (Elt F)),
    reshape main_v3 main_v4 rfl shapeCasts_S8x32_S256x1,
    reshape main_v4 main_v5 rfl shapeCasts_S256x1_S256,
    nullary main_cst_0 (constant S_ .f32 0x00000000#32),
    unary main_cst_0 main_v6 (broadcastInDim S256 ![] bcast_S_S256 : (⟨S_, .f32⟩ : BufTy).Contents (Elt F) → (⟨S256, .f32⟩ : BufTy).Contents (Elt F)),
    binary main_v5 main_v6 main_v7 (cmpf .oeq : (⟨S256, .f32⟩ : BufTy).Contents (Elt F) → (⟨S256, .f32⟩ : BufTy).Contents (Elt F) → (⟨S256, .i1⟩ : BufTy).Contents (Elt F)),
    nullary main_cst_1 (constant S_ .f32 0x2B8CBCCC#32),
    unary main_cst_1 main_v8 (broadcastInDim S256x1 ![] bcast_S_S256x1 : (⟨S_, .f32⟩ : BufTy).Contents (Elt F) → (⟨S256x1, .f32⟩ : BufTy).Contents (Elt F)),
    binary main_v4 main_v8 main_v9 (addf : (⟨S256x1, .f32⟩ : BufTy).Contents (Elt F) → (⟨S256x1, .f32⟩ : BufTy).Contents (Elt F) → (⟨S256x1, .f32⟩ : BufTy).Contents (Elt F)),
    unary main_v9 main_v10 (broadcastInDim S256x512 ![0, 1] bcast_S256x1_S256x512_0_1 : (⟨S256x1, .f32⟩ : BufTy).Contents (Elt F) → (⟨S256x512, .f32⟩ : BufTy).Contents (Elt F)),
    binary main_v2 main_v10 main_v11 (Host.divf : (⟨S256x512, .f32⟩ : BufTy).Contents (Elt F) → (⟨S256x512, .f32⟩ : BufTy).Contents (Elt F) → (⟨S256x512, .f32⟩ : BufTy).Contents (Elt F)),
    unary main_v11 main_v12 ((transpose S512x256 [1, 0] · transposes_S256x512_S512x256_1_0) : (⟨S256x512, .f32⟩ : BufTy).Contents (Elt F) → (⟨S512x256, .f32⟩ : BufTy).Contents (Elt F)),
    binary main_arg1 main_v12 main_v13 ((fun l r => Host.dotGeneral dot_S256x512_S512x256_S256x256_1_0_0_1_n_n none l r) : (⟨S256x512, .f32⟩ : BufTy).Contents (Elt F) → (⟨S512x256, .f32⟩ : BufTy).Contents (Elt F) → (⟨S256x256, .f32⟩ : BufTy).Contents (Elt F)),
    unary main_arg3 main_v14 (Host.exp : (⟨S_, .f32⟩ : BufTy).Contents (Elt F) → (⟨S_, .f32⟩ : BufTy).Contents (Elt F)),
    unary main_v14 main_v15 (broadcastInDim S256x256 ![] bcast_S_S256x256 : (⟨S_, .f32⟩ : BufTy).Contents (Elt F) → (⟨S256x256, .f32⟩ : BufTy).Contents (Elt F)),
    binary main_v13 main_v15 main_v16 (mulf : (⟨S256x256, .f32⟩ : BufTy).Contents (Elt F) → (⟨S256x256, .f32⟩ : BufTy).Contents (Elt F) → (⟨S256x256, .f32⟩ : BufTy).Contents (Elt F)),
    nullary main_v17 (iotaInDim S256 32 0),
    unary main_v7 main_v18 (noti : (⟨S256, .i1⟩ : BufTy).Contents (Elt F) → (⟨S256, .i1⟩ : BufTy).Contents (Elt F)) ]

/-- @main's other 114 operations, in order (a called function's operations stand in its call's place,
    spelt `TRef.…`): they read the logits, the index vector and the validity mask, and nothing else of
    what came before. -/
abbrev opsRest : List (HloOp τ sig (Elt F)) :=
  [ TRef.nullary (TRef.of (T := ⟨S_, .f32⟩) main_call0_cst) (constant S_ .f32 0xFF800000#32),
    TRef.binary (TRef.of (T := ⟨S256x256, .f32⟩) main_v16) (TRef.of (T := ⟨S_, .f32⟩) main_call0_cst) (TRef.of (T := ⟨S256, .f32⟩) main_call0_v0) (fun x v => Host.reduce FloatOps.maximumf x v reducesTo_S256x256_S256_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S256, .f32⟩) main_call0_v1) (broadcastInDim S256 ![] bcast_S_S256),
    TRef.binary (TRef.of (T := ⟨S256, .f32⟩) main_call0_v1) (TRef.of (T := ⟨S256, .f32⟩) main_call0_v0) (TRef.of (T := ⟨S256, .f32⟩) main_call0_v2) maximumf,
    TRef.unary (TRef.of (T := ⟨S256, .f32⟩) main_call0_v2) (TRef.of (T := ⟨S256x1, .f32⟩) main_call0_v3) (broadcastInDim S256x1 ![0] bcast_S256_S256x1_0),
    TRef.unary (TRef.of (T := ⟨S256x1, .f32⟩) main_call0_v3) (TRef.of (T := ⟨S256x256, .f32⟩) main_call0_v4) (broadcastInDim S256x256 ![0, 1] bcast_S256x1_S256x256_0_1),
    TRef.binary (TRef.of (T := ⟨S256x256, .f32⟩) main_v16) (TRef.of (T := ⟨S256x256, .f32⟩) main_call0_v4) (TRef.of (T := ⟨S256x256, .f32⟩) main_call0_v5) subf,
    TRef.unary (TRef.of (T := ⟨S256x256, .f32⟩) main_call0_v5) (TRef.of (T := ⟨S256x256, .f32⟩) main_call0_v6) Host.exp,
    TRef.nullary (TRef.of (T := ⟨S_, .f32⟩) main_call0_cst_1) (constant S_ .f32 0x00000000#32),
    TRef.binary (TRef.of (T := ⟨S256x256, .f32⟩) main_call0_v6) (TRef.of (T := ⟨S_, .f32⟩) main_call0_cst_1) (TRef.of (T := ⟨S256, .f32⟩) main_call0_v7) (fun x v => Host.reduceAdd x v reducesTo_S256x256_S256_d1 h_S_),
    TRef.unary (TRef.of (T := ⟨S256, .f32⟩) main_call0_v7) (TRef.of (T := ⟨S256x1, .f32⟩) main_call0_v8) (broadcastInDim S256x1 ![0] bcast_S256_S256x1_0),
    TRef.unary (TRef.of (T := ⟨S256x1, .f32⟩) main_call0_v8) (TRef.of (T := ⟨S256x1, .f32⟩) main_call0_v9) Host.log,
    TRef.unary (TRef.of (T := ⟨S256x1, .f32⟩) main_call0_v9) (TRef.of (T := ⟨S256x256, .f32⟩) main_call0_v10) (broadcastInDim S256x256 ![0, 1] bcast_S256x1_S256x256_0_1),
    TRef.binary (TRef.of (T := ⟨S256x256, .f32⟩) main_call0_v5) (TRef.of (T := ⟨S256x256, .f32⟩) main_call0_v10) (TRef.of (T := ⟨S256x256, .f32⟩) main_v19) subf,
    nullary main_c (constantI S_ 32 0#32),
    unary main_c main_v20 (broadcastInDim S256 ![] bcast_S_S256 : (⟨S_, .i32⟩ : BufTy).Contents (Elt F) → (⟨S256, .i32⟩ : BufTy).Contents (Elt F)),
    binary main_v17 main_v20 main_v21 (cmpi .slt : (⟨S256, .i32⟩ : BufTy).Contents (Elt F) → (⟨S256, .i32⟩ : BufTy).Contents (Elt F) → (⟨S256, .i1⟩ : BufTy).Contents (Elt F)),
    nullary main_c_2 (constantI S_ 32 256#32),
    unary main_c_2 main_v22 (broadcastInDim S256 ![] bcast_S_S256 : (⟨S_, .i32⟩ : BufTy).Contents (Elt F) → (⟨S256, .i32⟩ : BufTy).Contents (Elt F)),
    binary main_v17 main_v22 main_v23 (addi : (⟨S256, .i32⟩ : BufTy).Contents (Elt F) → (⟨S256, .i32⟩ : BufTy).Contents (Elt F) → (⟨S256, .i32⟩ : BufTy).Contents (Elt F)),
    ternary main_v21 main_v23 main_v17 main_v24 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    nullary main_c_3 (constantI S_ 32 0#32),
    unary main_c_3 main_v25 (broadcastInDim S256 ![] bcast_S_S256 : (⟨S_, .i32⟩ : BufTy).Contents (Elt F) → (⟨S256, .i32⟩ : BufTy).Contents (Elt F)),
    binary main_v17 main_v25 main_v26 (cmpi .slt : (⟨S256, .i32⟩ : BufTy).Contents (Elt F) → (⟨S256, .i32⟩ : BufTy).Contents (Elt F) → (⟨S256, .i1⟩ : BufTy).Contents (Elt F)),
    nullary main_c_4 (constantI S_ 32 256#32),
    unary main_c_4 main_v27 (broadcastInDim S256 ![] bcast_S_S256 : (⟨S_, .i32⟩ : BufTy).Contents (Elt F) → (⟨S256, .i32⟩ : BufTy).Contents (Elt F)),
    binary main_v17 main_v27 main_v28 (addi : (⟨S256, .i32⟩ : BufTy).Contents (Elt F) → (⟨S256, .i32⟩ : BufTy).Contents (Elt F) → (⟨S256, .i32⟩ : BufTy).Contents (Elt F)),
    ternary main_v26 main_v28 main_v17 main_v29 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v24 main_v30 (broadcastInDim S256x1 ![0] bcast_S256_S256x1_0 : (⟨S256, .i32⟩ : BufTy).Contents (Elt F) → (⟨S256x1, .i32⟩ : BufTy).Contents (Elt F)),
    unary main_v29 main_v31 (broadcastInDim S256x1 ![0] bcast_S256_S256x1_0 : (⟨S256, .i32⟩ : BufTy).Contents (Elt F) → (⟨S256x1, .i32⟩ : BufTy).Contents (Elt F)),
    binary main_v30 main_v31 main_v32 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    binary main_v19 main_v32 main_v33 ((fun x i => Host.gather gather_S256x256_S256x2_S256_n_01_n_n_01_1_11 x i) : (⟨S256x256, .f32⟩ : BufTy).Contents (Elt F) → (⟨S256x2, .i32⟩ : BufTy).Contents (Elt F) → (⟨S256, .f32⟩ : BufTy).Contents (Elt F)),
    unary main_v33 main_v34 (Host.negf : (⟨S256, .f32⟩ : BufTy).Contents (Elt F) → (⟨S256, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S256, .f32⟩) main_call1_v1) (broadcastInDim S256 ![] bcast_S_S256),
    TRef.ternary (TRef.of (T := ⟨S256, .i1⟩) main_v18) (TRef.of (T := ⟨S256, .f32⟩) main_v34) (TRef.of (T := ⟨S256, .f32⟩) main_call1_v1) (TRef.of (T := ⟨S256, .f32⟩) main_v35) select,
    unary main_v16 main_v36 ((transpose S256x256 [1, 0] · transposes_S256x256_S256x256_1_0) : (⟨S256x256, .f32⟩ : BufTy).Contents (Elt F) → (⟨S256x256, .f32⟩ : BufTy).Contents (Elt F)),
    TRef.nullary (TRef.of (T := ⟨S_, .f32⟩) main_call2_cst) (constant S_ .f32 0xFF800000#32),
    TRef.binary (TRef.of (T := ⟨S256x256, .f32⟩) main_v36) (TRef.of (T := ⟨S_, .f32⟩) main_call2_cst) (TRef.of (T := ⟨S256, .f32⟩) main_call2_v0) (fun x v => Host.reduce FloatOps.maximumf x v reducesTo_S256x256_S256_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S256, .f32⟩) main_call2_v1) (broadcastInDim S256 ![] bcast_S_S256),
    TRef.binary (TRef.of (T := ⟨S256, .f32⟩) main_call2_v1) (TRef.of (T := ⟨S256, .f32⟩) main_call2_v0) (TRef.of (T := ⟨S256, .f32⟩) main_call2_v2) maximumf,
    TRef.unary (TRef.of (T := ⟨S256, .f32⟩) main_call2_v2) (TRef.of (T := ⟨S256x1, .f32⟩) main_call2_v3) (broadcastInDim S256x1 ![0] bcast_S256_S256x1_0),
    TRef.unary (TRef.of (T := ⟨S256x1, .f32⟩) main_call2_v3) (TRef.of (T := ⟨S256x256, .f32⟩) main_call2_v4) (broadcastInDim S256x256 ![0, 1] bcast_S256x1_S256x256_0_1),
    TRef.binary (TRef.of (T := ⟨S256x256, .f32⟩) main_v36) (TRef.of (T := ⟨S256x256, .f32⟩) main_call2_v4) (TRef.of (T := ⟨S256x256, .f32⟩) main_call2_v5) subf,
    TRef.unary (TRef.of (T := ⟨S256x256, .f32⟩) main_call2_v5) (TRef.of (T := ⟨S256x256, .f32⟩) main_call2_v6) Host.exp,
    TRef.nullary (TRef.of (T := ⟨S_, .f32⟩) main_call2_cst_1) (constant S_ .f32 0x00000000#32),
    TRef.binary (TRef.of (T := ⟨S256x256, .f32⟩) main_call2_v6) (TRef.of (T := ⟨S_, .f32⟩) main_call2_cst_1) (TRef.of (T := ⟨S256, .f32⟩) main_call2_v7) (fun x v => Host.reduceAdd x v reducesTo_S256x256_S256_d1 h_S_),
    TRef.unary (TRef.of (T := ⟨S256, .f32⟩) main_call2_v7) (TRef.of (T := ⟨S256x1, .f32⟩) main_call2_v8) (broadcastInDim S256x1 ![0] bcast_S256_S256x1_0),
    TRef.unary (TRef.of (T := ⟨S256x1, .f32⟩) main_call2_v8) (TRef.of (T := ⟨S256x1, .f32⟩) main_call2_v9) Host.log,
    TRef.unary (TRef.of (T := ⟨S256x1, .f32⟩) main_call2_v9) (TRef.of (T := ⟨S256x256, .f32⟩) main_call2_v10) (broadcastInDim S256x256 ![0, 1] bcast_S256x1_S256x256_0_1),
    TRef.binary (TRef.of (T := ⟨S256x256, .f32⟩) main_call2_v5) (TRef.of (T := ⟨S256x256, .f32⟩) main_call2_v10) (TRef.of (T := ⟨S256x256, .f32⟩) main_v37) subf,
    nullary main_c_6 (constantI S_ 32 0#32),
    unary main_c_6 main_v38 (broadcastInDim S256 ![] bcast_S_S256 : (⟨S_, .i32⟩ : BufTy).Contents (Elt F) → (⟨S256, .i32⟩ : BufTy).Contents (Elt F)),
    binary main_v17 main_v38 main_v39 (cmpi .slt : (⟨S256, .i32⟩ : BufTy).Contents (Elt F) → (⟨S256, .i32⟩ : BufTy).Contents (Elt F) → (⟨S256, .i1⟩ : BufTy).Contents (Elt F)),
    nullary main_c_7 (constantI S_ 32 256#32),
    unary main_c_7 main_v40 (broadcastInDim S256 ![] bcast_S_S256 : (⟨S_, .i32⟩ : BufTy).Contents (Elt F) → (⟨S256, .i32⟩ : BufTy).Contents (Elt F)),
    binary main_v17 main_v40 main_v41 (addi : (⟨S256, .i32⟩ : BufTy).Contents (Elt F) → (⟨S256, .i32⟩ : BufTy).Contents (Elt F) → (⟨S256, .i32⟩ : BufTy).Contents (Elt F)),
    ternary main_v39 main_v41 main_v17 main_v42 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    nullary main_c_8 (constantI S_ 32 0#32),
    unary main_c_8 main_v43 (broadcastInDim S256 ![] bcast_S_S256 : (⟨S_, .i32⟩ : BufTy).Contents (Elt F) → (⟨S256, .i32⟩ : BufTy).Contents (Elt F)),
    binary main_v17 main_v43 main_v44 (cmpi .slt : (⟨S256, .i32⟩ : BufTy).Contents (Elt F) → (⟨S256, .i32⟩ : BufTy).Contents (Elt F) → (⟨S256, .i1⟩ : BufTy).Contents (Elt F)),
    nullary main_c_9 (constantI S_ 32 256#32),
    unary main_c_9 main_v45 (broadcastInDim S256 ![] bcast_S_S256 : (⟨S_, .i32⟩ : BufTy).Contents (Elt F) → (⟨S256, .i32⟩ : BufTy).Contents (Elt F)),
    binary main_v17 main_v45 main_v46 (addi : (⟨S256, .i32⟩ : BufTy).Contents (Elt F) → (⟨S256, .i32⟩ : BufTy).Contents (Elt F) → (⟨S256, .i32⟩ : BufTy).Contents (Elt F)),
    ternary main_v44 main_v46 main_v17 main_v47 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v42 main_v48 (broadcastInDim S256x1 ![0] bcast_S256_S256x1_0 : (⟨S256, .i32⟩ : BufTy).Contents (Elt F) → (⟨S256x1, .i32⟩ : BufTy).Contents (Elt F)),
    unary main_v47 main_v49 (broadcastInDim S256x1 ![0] bcast_S256_S256x1_0 : (⟨S256, .i32⟩ : BufTy).Contents (Elt F) → (⟨S256x1, .i32⟩ : BufTy).Contents (Elt F)),
    binary main_v48 main_v49 main_v50 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    binary main_v37 main_v50 main_v51 ((fun x i => Host.gather gather_S256x256_S256x2_S256_n_01_n_n_01_1_11 x i) : (⟨S256x256, .f32⟩ : BufTy).Contents (Elt F) → (⟨S256x2, .i32⟩ : BufTy).Contents (Elt F) → (⟨S256, .f32⟩ : BufTy).Contents (Elt F)),
    unary main_v51 main_v52 (Host.negf : (⟨S256, .f32⟩ : BufTy).Contents (Elt F) → (⟨S256, .f32⟩ : BufTy).Contents (Elt F)),
    nullary main_cst_10 (constant S_ .f32 0x00000000#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S256, .f32⟩) main_call3_v1) (broadcastInDim S256 ![] bcast_S_S256),
    TRef.ternary (TRef.of (T := ⟨S256, .i1⟩) main_v18) (TRef.of (T := ⟨S256, .f32⟩) main_v52) (TRef.of (T := ⟨S256, .f32⟩) main_call3_v1) (TRef.of (T := ⟨S256, .f32⟩) main_v53) select,
    nullary main_cst_11 (constant S_ .f32 0x00000000#32),
    unary main_cst_11 main_v54 (broadcastInDim S256 ![] bcast_S_S256 : (⟨S_, .f32⟩ : BufTy).Contents (Elt F) → (⟨S256, .f32⟩ : BufTy).Contents (Elt F)),
    binary main_v35 main_v54 main_v55 (cmpf .ogt : (⟨S256, .f32⟩ : BufTy).Contents (Elt F) → (⟨S256, .f32⟩ : BufTy).Contents (Elt F) → (⟨S256, .i1⟩ : BufTy).Contents (Elt F)),
    unary main_v55 main_v56 ((extui 32 · natLt_1_32) : (⟨S256, .i1⟩ : BufTy).Contents (Elt F) → (⟨S256, .i32⟩ : BufTy).Contents (Elt F)),
    nullary main_c_12 (constantI S_ 32 0#32),
    binary main_v56 main_c_12 main_v57 ((fun x v => Host.reduce IntOp.addi x v reducesTo_S256_S_d0 h_S_) : (⟨S256, .i32⟩ : BufTy).Contents (Elt F) → (⟨S_, .i32⟩ : BufTy).Contents (Elt F) → (⟨S_, .i32⟩ : BufTy).Contents (Elt F)),
    nullary main_c_13 (constantI S_ 32 0#32),
    binary main_v57 main_c_13 main_v58 (cmpi .sgt : (⟨S_, .i32⟩ : BufTy).Contents (Elt F) → (⟨S_, .i32⟩ : BufTy).Contents (Elt F) → (⟨S_, .i1⟩ : BufTy).Contents (Elt F)),
    nullary main_cst_14 (constant S_ .f32 0x00000000#32),
    binary main_v35 main_cst_14 main_v59 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_c_15 (constantI S_ 32 1#32),
    binary main_v57 main_c_15 main_v60 (maxsi : (⟨S_, .i32⟩ : BufTy).Contents (Elt F) → (⟨S_, .i32⟩ : BufTy).Contents (Elt F) → (⟨S_, .i32⟩ : BufTy).Contents (Elt F)),
    unary main_v60 main_v61 (sitofp .f32 : (⟨S_, .i32⟩ : BufTy).Contents (Elt F) → (⟨S_, .f32⟩ : BufTy).Contents (Elt F)),
    binary main_v59 main_v61 main_v62 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    TRef.unary (TRef.of (T := ⟨S_, .f32⟩) main_cst_16) (TRef.of (T := ⟨S_, .f32⟩) main_call4_v0) id,
    TRef.ternary (TRef.of (T := ⟨S_, .i1⟩) main_v58) (TRef.of (T := ⟨S_, .f32⟩) main_v62) (TRef.of (T := ⟨S_, .f32⟩) main_call4_v0) (TRef.of (T := ⟨S_, .f32⟩) main_v63) select,
    nullary main_cst_17 (constant S_ .f32 0x00000000#32),
    unary main_cst_17 main_v64 (broadcastInDim S256 ![] bcast_S_S256 : (⟨S_, .f32⟩ : BufTy).Contents (Elt F) → (⟨S256, .f32⟩ : BufTy).Contents (Elt F)),
    binary main_v53 main_v64 main_v65 (cmpf .ogt : (⟨S256, .f32⟩ : BufTy).Contents (Elt F) → (⟨S256, .f32⟩ : BufTy).Contents (Elt F) → (⟨S256, .i1⟩ : BufTy).Contents (Elt F)),
    unary main_v65 main_v66 ((extui 32 · natLt_1_32) : (⟨S256, .i1⟩ : BufTy).Contents (Elt F) → (⟨S256, .i32⟩ : BufTy).Contents (Elt F)),
    nullary main_c_18 (constantI S_ 32 0#32),
    binary main_v66 main_c_18 main_v67 ((fun x v => Host.reduce IntOp.addi x v reducesTo_S256_S_d0 h_S_) : (⟨S256, .i32⟩ : BufTy).Contents (Elt F) → (⟨S_, .i32⟩ : BufTy).Contents (Elt F) → (⟨S_, .i32⟩ : BufTy).Contents (Elt F)),
    nullary main_c_19 (constantI S_ 32 0#32),
    binary main_v67 main_c_19 main_v68 (cmpi .sgt : (⟨S_, .i32⟩ : BufTy).Contents (Elt F) → (⟨S_, .i32⟩ : BufTy).Contents (Elt F) → (⟨S_, .i1⟩ : BufTy).Contents (Elt F)),
    nullary main_cst_20 (constant S_ .f32 0x00000000#32),
    binary main_v53 main_cst_20 main_v69 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_c_21 (constantI S_ 32 1#32),
    binary main_v67 main_c_21 main_v70 (maxsi : (⟨S_, .i32⟩ : BufTy).Contents (Elt F) → (⟨S_, .i32⟩ : BufTy).Contents (Elt F) → (⟨S_, .i32⟩ : BufTy).Contents (Elt F)),
    unary main_v70 main_v71 (sitofp .f32 : (⟨S_, .i32⟩ : BufTy).Contents (Elt F) → (⟨S_, .f32⟩ : BufTy).Contents (Elt F)),
    binary main_v69 main_v71 main_v72 (Host.divf : (⟨S_, .f32⟩ : BufTy).Contents (Elt F) → (⟨S_, .f32⟩ : BufTy).Contents (Elt F) → (⟨S_, .f32⟩ : BufTy).Contents (Elt F)),
    nullary main_cst_22 (constant S_ .f32 0x00000000#32),
    TRef.unary (TRef.of (T := ⟨S_, .f32⟩) main_cst_22) (TRef.of (T := ⟨S_, .f32⟩) main_call5_v0) id,
    TRef.ternary (TRef.of (T := ⟨S_, .i1⟩) main_v68) (TRef.of (T := ⟨S_, .f32⟩) main_v72) (TRef.of (T := ⟨S_, .f32⟩) main_call5_v0) (TRef.of (T := ⟨S_, .f32⟩) main_v73) select,
    binary main_v63 main_v73 main_v74 (addf : (⟨S_, .f32⟩ : BufTy).Contents (Elt F) → (⟨S_, .f32⟩ : BufTy).Contents (Elt F) → (⟨S_, .f32⟩ : BufTy).Contents (Elt F)),
    nullary main_cst_23 (constant S_ .f32 0x40000000#32),
    binary main_v74 main_cst_23 main_v75 (Host.divf : (⟨S_, .f32⟩ : BufTy).Contents (Elt F) → (⟨S_, .f32⟩ : BufTy).Contents (Elt F) → (⟨S_, .f32⟩ : BufTy).Contents (Elt F)) ]

/-- @main's 136 operations, in order. -/
abbrev ops : List (HloOp τ sig (Elt F)) := opsPre ++ opsRest

set_option maxRecDepth 65536 in
set_option maxHeartbeats 4000000 in
/-- @main is the straight line of its operations. -/
theorem main_eq (c : Dev nD) : main (F := F) c = seq ops := rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxRecDepth 65536 in
/-- Every operation of the first stretch touches TensorCore references only. -/
theorem opsPre_sub : (opsPre : List (HloOp τ sig (Elt F))).Forall fun op => op.bufs ⊆ tcRefs τ sig :=
  ⟨reshape_bufs_sub .., binary_bufs_sub .., reshape_bufs_sub .., nullary_bufs_sub .., binary_bufs_sub .., reshape_bufs_sub .., reshape_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub ..⟩

set_option maxRecDepth 65536 in
/-- Every operation of the remainder touches TensorCore references only. -/
theorem opsRest_sub : (opsRest : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., unary_bufs_sub .., ternary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., unary_bufs_sub .., ternary_bufs_sub .., binary_bufs_sub .., nullary_bufs_sub .., binary_bufs_sub ..⟩

/-- Every operation of @main touches TensorCore references only. -/
theorem ops_sub : (ops : List (HloOp τ sig (Elt F))).Forall fun op => op.bufs ⊆ tcRefs τ sig :=
  List.forall_iff_forall_mem.2 fun op h => (List.mem_append.1 h).elim
    (List.forall_iff_forall_mem.1 opsPre_sub op) (List.forall_iff_forall_mem.1 opsRest_sub op)

/-- The fold of two lines run one after the other is the second's fold over the first's. -/
theorem after_append' {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l₁, l₂, V => by rw [List.cons_append, after_cons, after_cons, after_append' l₁ l₂]

/-- What a buffer holds after @main is what it holds after the remainder run from the contents the
    first stretch leaves. -/
theorem after_split (V : Valuation τ sig (Elt F)) (b : DevRef τ sig) :
    after ops V b = after opsRest (after opsPre V) b := by
  rw [show (ops : List (HloOp τ sig (Elt F))) = opsPre ++ opsRest from rfl, after_append']

set_option maxRecDepth 65536 in
set_option maxHeartbeats 4000000 in
/-- On every device, for any float values, from any memory with zero counters: every weakly fair execution of
    @main terminates, and every TensorCore buffer ends at the fold of the operations' results over its launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- No operation of the line writes argument 0: its buffer holds afterwards what it held before. -/
theorem arg0_kept (V : Valuation τ sig (Elt F)) :
    after ops V (Proc.devRef .tc main_arg0) = V (Proc.devRef .tc main_arg0) := by
  refine after_of_forall_not_mem ops V (List.forall_iff_forall_mem.1 ?_)
  simp only [ops, opsPre, opsRest, List.cons_append, List.nil_append, List.Forall, nullary_writes, unary_writes, binary_writes,
    ternary_writes, quaternary_writes, reshape_writes, binaryIndexed_writes, unaryIndexed_writes, nary_writes, Finset.mem_singleton]
  repeat' apply And.intro
  all_goals exact devRef_ne_of_ne (by decide)

/-- No operation of the line writes argument 1: its buffer holds afterwards what it held before. -/
theorem arg1_kept (V : Valuation τ sig (Elt F)) :
    after ops V (Proc.devRef .tc main_arg1) = V (Proc.devRef .tc main_arg1) := by
  refine after_of_forall_not_mem ops V (List.forall_iff_forall_mem.1 ?_)
  simp only [ops, opsPre, opsRest, List.cons_append, List.nil_append, List.Forall, nullary_writes, unary_writes, binary_writes,
    ternary_writes, quaternary_writes, reshape_writes, binaryIndexed_writes, unaryIndexed_writes, nary_writes, Finset.mem_singleton]
  repeat' apply And.intro
  all_goals exact devRef_ne_of_ne (by decide)

/-- No operation of the line writes argument 2: its buffer holds afterwards what it held before. -/
theorem arg2_kept (V : Valuation τ sig (Elt F)) :
    after ops V (Proc.devRef .tc main_arg2) = V (Proc.devRef .tc main_arg2) := by
  refine after_of_forall_not_mem ops V (List.forall_iff_forall_mem.1 ?_)
  simp only [ops, opsPre, opsRest, List.cons_append, List.nil_append, List.Forall, nullary_writes, unary_writes, binary_writes,
    ternary_writes, quaternary_writes, reshape_writes, binaryIndexed_writes, unaryIndexed_writes, nary_writes, Finset.mem_singleton]
  repeat' apply And.intro
  all_goals exact devRef_ne_of_ne (by decide)

/-- No operation of the line writes argument 3: its buffer holds afterwards what it held before. -/
theorem arg3_kept (V : Valuation τ sig (Elt F)) :
    after ops V (Proc.devRef .tc main_arg3) = V (Proc.devRef .tc main_arg3) := by
  refine after_of_forall_not_mem ops V (List.forall_iff_forall_mem.1 ?_)
  simp only [ops, opsPre, opsRest, List.cons_append, List.nil_append, List.Forall, nullary_writes, unary_writes, binary_writes,
    ternary_writes, quaternary_writes, reshape_writes, binaryIndexed_writes, unaryIndexed_writes, nary_writes, Finset.mem_singleton]
  repeat' apply And.intro
  all_goals exact devRef_ne_of_ne (by decide)

/-- No operation of the line writes argument 4: its buffer holds afterwards what it held before. -/
theorem arg4_kept (V : Valuation τ sig (Elt F)) :
    after ops V (Proc.devRef .tc main_arg4) = V (Proc.devRef .tc main_arg4) := by
  refine after_of_forall_not_mem ops V (List.forall_iff_forall_mem.1 ?_)
  simp only [ops, opsPre, opsRest, List.cons_append, List.nil_append, List.Forall, nullary_writes, unary_writes, binary_writes,
    ternary_writes, quaternary_writes, reshape_writes, binaryIndexed_writes, unaryIndexed_writes, nary_writes, Finset.mem_singleton]
  repeat' apply And.intro
  all_goals exact devRef_ne_of_ne (by decide)

/-- Every weakly fair execution of @main terminates with the five argument buffers at their launch contents. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_arg0).trans (arg0_kept _), (h c main_arg1).trans (arg1_kept _),
      (h c main_arg2).trans (arg2_kept _), (h c main_arg3).trans (arg3_kept _), (h c main_arg4).trans (arg4_kept _)⟩)
    (run_after m ρ)

/-- The logits after the first stretch: the query rows against the transposed per-group averages, scaled by
    the exponential of the scalar argument. -/
theorem pre_logits (V : Valuation τ sig (Elt F)) :
    after opsPre V (Proc.devRef .tc main_v16)
      = mulf (Host.dotGeneral dot_S256x512_S512x256_S256x256_1_0_0_1_n_n none (V (Proc.devRef .tc main_arg1))
          (transpose S512x256 [1, 0] (Host.divf (shapeCast S256x512 (Host.dotGeneral dot_S8x32x8192_S8x8192x512_S8x32x512_2_1_1_2_0_0 none (V (Proc.devRef .tc main_arg2)) (shapeCast S8x8192x512 (V (Proc.devRef .tc main_arg0)) shapeCasts_S65536x512_S8x8192x512)) shapeCasts_S8x32x512_S256x512) (broadcastInDim S256x512 ![0, 1] bcast_S256x1_S256x512_0_1 (addf (shapeCast S256x1 (Host.reduceAdd (V (Proc.devRef .tc main_arg2)) (constant S_ .f32 0x00000000#32) reducesTo_S8x32x8192_S8x32_d2 h_S_) shapeCasts_S8x32_S256x1) (broadcastInDim S256x1 ![] bcast_S_S256x1 (constant S_ .f32 0x2B8CBCCC#32))))) transposes_S256x512_S512x256_1_0))
        (broadcastInDim S256x256 ![] bcast_S_S256x256 (Host.exp (V (Proc.devRef .tc main_arg3)))) := by
  after_results_simp <;> rfl

/-- The index vector after the first stretch: 0, 1, …, 255. -/
theorem pre_iota (V : Valuation τ sig (Elt F)) :
    after opsPre V (Proc.devRef .tc main_v17) = iotaInDim S256 32 0 := by
  after_results_simp <;> rfl

/-- The validity mask after the first stretch: a group is valid when the sum of its weights is not zero. -/
theorem pre_valid (V : Valuation τ sig (Elt F)) :
    after opsPre V (Proc.devRef .tc main_v18)
      = noti (cmpf .oeq (shapeCast S256 (shapeCast S256x1 (Host.reduceAdd (V (Proc.devRef .tc main_arg2)) (constant S_ .f32 0x00000000#32) reducesTo_S8x32x8192_S8x32_d2 h_S_) shapeCasts_S8x32_S256x1) shapeCasts_S256x1_S256)
          (broadcastInDim S256 ![] bcast_S_S256 (constant S_ .f32 0x00000000#32))) := by
  after_results_simp <;> rfl

end Cert.ReferenceIdeal.RefRun

end
-- ==== Proof.TailEq.lean ====
/- The two programs after their cut agree. Once the logits, the index vector and the validity mask are
   given, the kernel program's remaining host operations and the reference program's remaining operations
   are the same straight line — log-softmax of the logits, the diagonal gathered through the index vector,
   negated and kept where the mask holds, the same over the transposed logits, the two averages over the
   nonzero entries, their sum halved — over differently numbered buffers and two copies of the same shape
   records. So from any two buffer contents that agree on those three values the two final scalars are equal. -/
import proofs.«168626_j28896539967630_2_alg».proof.Proof.RefRun
import proofs.«168626_j28896539967630_2_alg».proof.Proof.Gen.KernelIdeal.Launch
import Idealize.ShloMosaic.PureOps.Ideal

noncomputable section

namespace Cert.TailEq

open Idealize.ShloMosaic Idealize.ShloMosaic.TcCoe Idealize.SL.Sem Idealize.ShloMosaic.StableHlo

/-- The kernel program's host operations after its first stretch, in order: everything that follows the
    logits, the index vector and the validity mask. -/
abbrev kRest : List (HloOp Cert.KernelIdeal.τ Cert.KernelIdeal.sig (Elt Idealize.ShloMosaic.Ideal)) :=
  Cert.KernelIdeal.Gen.hostOps1_1 ++
  Cert.KernelIdeal.Gen.hostOps1_2 ++
  Cert.KernelIdeal.Gen.hostOps1_3 ++
  Cert.KernelIdeal.Gen.hostOps1_4 ++
  Cert.KernelIdeal.Gen.hostOps1_5 ++
  Cert.KernelIdeal.Gen.hostOps1_6 ++
  Cert.KernelIdeal.Gen.hostOps1_7 ++
  Cert.KernelIdeal.Gen.hostOps1_8 ++
  Cert.KernelIdeal.Gen.hostOps1_9 ++
  Cert.KernelIdeal.Gen.hostOps1_10 ++
  Cert.KernelIdeal.Gen.hostOps1_11 ++
  Cert.KernelIdeal.Gen.hostOps1_12

/-- Joining two arrays along an axis respects equality of each piece. -/
theorem concatenate_pair_congr {α : Type} {t : Shape} {d : Fin t.rank} {s₁ s₂ : Shape} {a a' : s₁.Idx → α} {b b' : s₂.Idx → α}
    {h : Shape.Concatenates [s₁, s₂] t d} (ha : a = a') (hb : b = b') :
    concatenate t d [⟨s₁, a⟩, ⟨s₂, b⟩] h = concatenate t d [⟨s₁, a'⟩, ⟨s₂, b'⟩] h := by
  subst ha hb; rfl

attribute [local congr] concatenate_pair_congr

set_option maxRecDepth 65536 in
set_option maxHeartbeats 16000000 in
/-- From contents that agree on the logits, the index vector and the validity mask, the kernel program's
    remaining host operations and the reference program's remaining operations leave the same final scalar:
    each side is one pure term of those three values, and the two terms are the same. -/
theorem rest_eq (WK : Valuation Cert.KernelIdeal.τ Cert.KernelIdeal.sig (Elt Idealize.ShloMosaic.Ideal))
    (WR : Valuation Cert.ReferenceIdeal.τ Cert.ReferenceIdeal.sig (Elt Idealize.ShloMosaic.Ideal))
    (h10 : WK (Proc.devRef .tc Cert.KernelIdeal.main_v10) = WR (Proc.devRef .tc Cert.ReferenceIdeal.main_v16))
    (h11 : WK (Proc.devRef .tc Cert.KernelIdeal.main_v11) = WR (Proc.devRef .tc Cert.ReferenceIdeal.main_v17))
    (h12 : WK (Proc.devRef .tc Cert.KernelIdeal.main_v12) = WR (Proc.devRef .tc Cert.ReferenceIdeal.main_v18)) :
    after kRest WK (Proc.devRef .tc Cert.KernelIdeal.main_v69) = after Cert.ReferenceIdeal.RefRun.opsRest WR (Proc.devRef .tc Cert.ReferenceIdeal.main_v75) := by
  simp only [kRest, Cert.ReferenceIdeal.RefRun.opsRest, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, List.cons_append, List.nil_append]
  after_results_simp
  rw [h10, h11, h12]
  rfl

end Cert.TailEq

end
-- ==== Proof.lean ====
/-
  The certificate of the segment-mean kernel against its jnp reference.

  Both programs compute, for each of the 256 masks (32 per object, 8 objects of 8192 points), the weighted mean of
  the points' 512 features — the weighted sum over the total weight plus a literal ε — and the total weight, and
  then the same scalar loss from those two arrays, the text embeddings and the logit scale.  The kernel does the
  sums on an 8 × 2 grid, half an object's points per step, in two accumulators it clears at each object's first
  step; the reference does them as one contraction and one reduction.  At the ideal instance an object's sums over
  its 8192 points are the two halves' sums added from zero, so the arrays agree entry by entry, and the remaining
  host lines are the same operations on both sides.

  * The three frames: the two kernel programs' frames are the hand-written frame runs (one module family per
    program, generic in the float instance); the reference's is its straight line of host operations run.
  * `preserves`: the ideal pass rewrote nothing.
  * `algebraic`: both runs are cut after the logits, the index vector and the validity mask; those three agree
    (the kernel's through the specification's arrays, the reference's by reading its first lines at an index), and
    the remaining lines are compared once over abstract buffer contents.
-/
import proofs.«168626_j28896539967630_2_alg».proof.Defs
import proofs.«168626_j28896539967630_2_alg».proof.Proof.Gen.Kernel
import proofs.«168626_j28896539967630_2_alg».proof.Proof.Gen.KernelIdeal
import proofs.«168626_j28896539967630_2_alg».proof.Proof.Gen.ReferenceIdeal
import proofs.«168626_j28896539967630_2_alg».proof.Proof.Gen.Pre_finite_inputs
import proofs.«168626_j28896539967630_2_alg».proof.Proof.BitsFrame
import proofs.«168626_j28896539967630_2_alg».proof.Proof.IdealTail
import proofs.«168626_j28896539967630_2_alg».proof.Proof.RefValue
import proofs.«168626_j28896539967630_2_alg».proof.Proof.TailEq
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Seg.frame (F := Bits) m ρ
theorem frame_ki : Cert.frame_KernelIdeal := fun m ρ _ => Cert.KernelIdeal.Seg.frame (F := Ideal) m ρ
theorem frame_ri : Cert.frame_ReferenceIdeal := fun m ρ _ => Cert.ReferenceIdeal.RefRun.frame (F := Ideal) m ρ

theorem preserves : Cert.preserves_Kernel_KernelIdeal := trivial

/-- The kernel's tail is its first stretch followed by the twelve later ones. -/
theorem tail_cut : (Cert.KernelIdeal.Seg.tailOps (F := Ideal)).flatten = Cert.KernelIdeal.Gen.hostOps1 ++ Cert.TailEq.kRest := by
  simp only [Cert.KernelIdeal.Seg.tailOps, Cert.TailEq.kRest, List.flatten_cons, List.flatten_nil, List.append_nil, List.append_assoc]

/-- The logits of the two programs agree when the arguments do. -/
theorem logits_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after Cert.KernelIdeal.Gen.hostOps1 (Cert.KernelIdeal.SegValue.WA m c) (Proc.devRef .tc Cert.KernelIdeal.main_v10)
      = after Cert.ReferenceIdeal.RefRun.opsPre (launchContents m' c) (Proc.devRef .tc Cert.ReferenceIdeal.main_v16) := by
  rw [Cert.KernelIdeal.SegValue.k_logits, Cert.ReferenceIdeal.RefRun.pre_logits, Cert.ReferenceIdeal.RefValue.ref_avg]
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  rw [e0, e1, e2, e3]
  rfl

/-- The validity masks agree. -/
theorem valid_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    after Cert.KernelIdeal.Gen.hostOps1 (Cert.KernelIdeal.SegValue.WA m c) (Proc.devRef .tc Cert.KernelIdeal.main_v12)
      = after Cert.ReferenceIdeal.RefRun.opsPre (launchContents m' c) (Proc.devRef .tc Cert.ReferenceIdeal.main_v18) := by
  rw [Cert.KernelIdeal.SegValue.k_valid, Cert.ReferenceIdeal.RefRun.pre_valid, Cert.ReferenceIdeal.RefValue.ref_cnt]
  have e2 : launchContents m' c (Proc.devRef .tc Cert.ReferenceIdeal.main_arg2) = m ((c.tc : Thread Cert.KernelIdeal.nD Cert.KernelIdeal.τ).loc Cert.KernelIdeal.main_arg2) := h2
  rw [e2]
  rfl

/-- The index vectors agree. -/
theorem iota_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) :
    after Cert.KernelIdeal.Gen.hostOps1 (Cert.KernelIdeal.SegValue.WA m c) (Proc.devRef .tc Cert.KernelIdeal.main_v11)
      = after Cert.ReferenceIdeal.RefRun.opsPre (launchContents m' c) (Proc.devRef .tc Cert.ReferenceIdeal.main_v17) := by
  rw [Cert.KernelIdeal.SegValue.k_iota, Cert.ReferenceIdeal.RefRun.pre_iota]

theorem algebraic : Cert.algebraic_KernelIdeal_ReferenceIdeal := by
  intro m ρ m' ρ' _ hagree
  refine ⟨fun c => after Cert.TailEq.kRest (after Cert.KernelIdeal.Gen.hostOps1 (Cert.KernelIdeal.SegValue.WA m c)) (Proc.devRef .tc Cert.KernelIdeal.main_v69), ?_, ?_⟩
  · exact (θ_run Cert.KernelIdeal.defs _ _).mono
      (fun r h c => ⟨Cert.KernelIdeal.SegValue.result_of_post m r h c _ tail_cut, Cert.KernelIdeal.SegValue.args_of_post m r h c⟩)
      (Cert.KernelIdeal.Seg.run_main (F := Ideal) m ρ)
  · refine (θ_run Cert.ReferenceIdeal.defs _ _).mono (fun r h c => ⟨?_, (h c Cert.ReferenceIdeal.main_arg0).trans (Cert.ReferenceIdeal.RefRun.arg0_kept _),
        (h c Cert.ReferenceIdeal.main_arg1).trans (Cert.ReferenceIdeal.RefRun.arg1_kept _), (h c Cert.ReferenceIdeal.main_arg2).trans (Cert.ReferenceIdeal.RefRun.arg2_kept _),
        (h c Cert.ReferenceIdeal.main_arg3).trans (Cert.ReferenceIdeal.RefRun.arg3_kept _), (h c Cert.ReferenceIdeal.main_arg4).trans (Cert.ReferenceIdeal.RefRun.arg4_kept _)⟩)
      (Cert.ReferenceIdeal.RefRun.run_after (F := Ideal) m' ρ')
    refine (h c Cert.ReferenceIdeal.main_v75).trans ((Cert.ReferenceIdeal.RefRun.after_split _ _).trans ?_)
    exact (Cert.TailEq.rest_eq _ _ (logits_eq m m' c (hagree c).1 (hagree c).2.1 (hagree c).2.2.1 (hagree c).2.2.2.1)
      (iota_eq m m' c) (valid_eq m m' c (hagree c).2.2.1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
